-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x32768 : Shape := ⟨2, ![256, 32768]⟩
abbrev S256x256 : Shape := ⟨2, ![256, 256]⟩
abbrev S16x256 : Shape := ⟨2, ![16, 256]⟩
abbrev S_ : Shape := ⟨0, ![]⟩

class Facts : Prop where
  bcast_S_S256x32768 : S_.BroadcastsInDim S256x32768 (![] : Fin 0 → Fin S256x32768.rank)
  reducesTo_S256x32768_S_d0_1 : S256x32768.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S16x256 : S_.BroadcastsInDim S16x256 (![] : Fin 0 → Fin S16x256.rank)
  reducesTo_S16x256_S_d0_1 : S16x256.ReducesTo [0, 1] S_

variable [Facts]

def fn_part1 {F : FTy → Type} [FloatOps F] (main_v13 : IVec S_ 1) (main_v16 : IVec S16x256 1) : IVec S_ 1 :=
  let main_c_5 : IVec S_ 1 := constantI S_ 1 1#1
  let main_v17 : IVec S_ 1 := (fun x v => Host.reduce IntOp.andi x v reducesTo_S16x256_S_d0_1 h_S_) main_v16 main_c_5
  let main_v18 : IVec S_ 1 := andi main_v13 main_v17
  main_v18

def fn {F : FTy → Type} [FloatOps F] (main_arg0 : FVec F S256x32768 .f32) (main_arg1 : FVec F S256x256 .f32) (main_arg2 : FVec F S256x256 .f32) (main_arg3 : FVec F S16x256 .f32) : IVec S_ 1 :=
  let main_v0 : FVec F S256x32768 .f32 := Host.absf main_arg0
  let main_cst : FVec F S_ .f32 := constant S_ .f32 0x7F800000#32
  let main_v1 : FVec F S256x32768 .f32 := broadcastInDim S256x32768 ![] bcast_S_S256x32768 main_cst
  let main_v2 : IVec S256x32768 1 := cmpf .olt main_v0 main_v1
  let main_c : IVec S_ 1 := constantI S_ 1 1#1
  let main_v3 : IVec S_ 1 := (fun x v => Host.reduce IntOp.andi x v reducesTo_S256x32768_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S16x256 .f32 := Host.absf main_arg3
  let main_cst_4 : FVec F S_ .f32 := constant S_ .f32 0x7F800000#32
  let main_v15 : FVec F S16x256 .f32 := broadcastInDim S16x256 ![] bcast_S_S16x256 main_cst_4
  let main_v16 : IVec S16x256 1 := cmpf .olt main_v14 main_v15
  fn_part1 (F := F) main_v13 main_v16
-- ==== Kernel.lean ====
abbrev S256x32768 : Shape := ⟨2, ![256, 32768]⟩
abbrev S256x256 : Shape := ⟨2, ![256, 256]⟩
abbrev S16x256 : Shape := ⟨2, ![16, 256]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x4096 : Shape := ⟨2, ![256, 4096]⟩

abbrev nBuf : Space → Nat
  | .hbm => 121
  | .vmem => 10
  | .smem => 0
  | _ => 0

abbrev bufTy : (tb : Table) → Fin (tcTables nBuf tb) → BufTy
  | .hbm, ⟨0, _⟩ => ⟨S256x32768, .f32⟩
  | .hbm, ⟨1, _⟩ => ⟨S256x256, .f32⟩
  | .hbm, ⟨2, _⟩ => ⟨S256x256, .f32⟩
  | .hbm, ⟨3, _⟩ => ⟨S16x256, .f32⟩
  | .hbm, ⟨4, _⟩ => ⟨S_, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S256x1, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S256x1, .f32⟩
  | .hbm, ⟨24, _⟩ => ⟨S256x256, .f32⟩
  | .hbm, ⟨25, _⟩ => ⟨S256x256, .f32⟩
  | .hbm, ⟨26, _⟩ => ⟨S256x256, .f32⟩
  | .hbm, ⟨27, _⟩ => ⟨S_, .f32⟩
  | .hbm, ⟨28, _⟩ => ⟨S256, .f32⟩
  | .hbm, ⟨29, _⟩ => ⟨S256x1, .f32⟩
  | .hbm, ⟨30, _⟩ => ⟨S256x256, .f32⟩
  | .hbm, ⟨31, _⟩ => ⟨S256x256, .f32⟩
  | .hbm, ⟨32, _⟩ => ⟨S_, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S1x256, .f32⟩
  | .hbm, ⟨38, _⟩ => ⟨S16x256, .f32⟩
  | .hbm, ⟨39, _⟩ => ⟨S16x256, .f32⟩
  | .hbm, ⟨40, _⟩ => ⟨S16x256, .f32⟩
  | .hbm, ⟨41, _⟩ => ⟨S_, .f32⟩
  | .hbm, ⟨42, _⟩ => ⟨S256, .f32⟩
  | .hbm, ⟨43, _⟩ => ⟨S1x256, .f32⟩
  | .hbm, ⟨44, _⟩ => ⟨S16x256, .f32⟩
  | .hbm, ⟨45, _⟩ => ⟨S16x256, .f32⟩
  | .hbm, ⟨46, _⟩ => ⟨S1x256, .f32⟩
  | .hbm, ⟨47, _⟩ => ⟨S256, .f32⟩
  | .hbm, ⟨48, _⟩ => ⟨S1x256, .f32⟩
  | .hbm, ⟨49, _⟩ => ⟨S256, .f32⟩
  | .hbm, ⟨50, _⟩ => ⟨S1x256, .f32⟩
  | .hbm, ⟨51, _⟩ => ⟨S256, .f32⟩
  | .hbm, ⟨52, _⟩ => ⟨S1x256, .f32⟩
  | .hbm, ⟨53, _⟩ => ⟨S256, .f32⟩
  | .hbm, ⟨54, _⟩ => ⟨S1x256, .f32⟩
  | .hbm, ⟨55, _⟩ => ⟨S256, .f32⟩
  | .hbm, ⟨56, _⟩ => ⟨S1x256, .f32⟩
  | .hbm, ⟨57, _⟩ => ⟨S256, .f32⟩
  | .hbm, ⟨58, _⟩ => ⟨S1x256, .f32⟩
  | .hbm, ⟨59, _⟩ => ⟨S256, .f32⟩
  | .hbm, ⟨60, _⟩ => ⟨S1x256, .f32⟩
  | .hbm, ⟨61, _⟩ => ⟨S256, .f32⟩
  | .hbm, ⟨62, _⟩ => ⟨S1x256, .f32⟩
  | .hbm, ⟨63, _⟩ => ⟨S256, .f32⟩
  | .hbm, ⟨64, _⟩ => ⟨S1x256, .f32⟩
  | .hbm, ⟨65, _⟩ => ⟨S256, .f32⟩
  | .hbm, ⟨66, _⟩ => ⟨S1x256, .f32⟩
  | .hbm, ⟨67, _⟩ => ⟨S256, .f32⟩
  | .hbm, ⟨68, _⟩ => ⟨S1x256, .f32⟩
  | .hbm, ⟨69, _⟩ => ⟨S256, .f32⟩
  | .hbm, ⟨70, _⟩ => ⟨S1x256, .f32⟩
  | .hbm, ⟨71, _⟩ => ⟨S256, .f32⟩
  | .hbm, ⟨72, _⟩ => ⟨S1x256, .f32⟩
  | .hbm, ⟨73, _⟩ => ⟨S256, .f32⟩
  | .hbm, ⟨74, _⟩ => ⟨S1x256, .f32⟩
  | .hbm, ⟨75, _⟩ => ⟨S256, .f32⟩
  | .hbm, ⟨76, _⟩ => ⟨S1x256, .f32⟩
  | .hbm, ⟨77, _⟩ => ⟨S256, .f32⟩
  | .hbm, ⟨78, _⟩ => ⟨S256, .f32⟩
  | .hbm, ⟨79, _⟩ => ⟨S256, .f32⟩
  | .hbm, ⟨80, _⟩ => ⟨S256, .f32⟩
  | .hbm, ⟨81, _⟩ => ⟨S256, .f32⟩
  | .hbm, ⟨82, _⟩ => ⟨S256, .f32⟩
  | .hbm, ⟨83, _⟩ => ⟨S256, .f32⟩
  | .hbm, ⟨84, _⟩ => ⟨S256, .f32⟩
  | .hbm, ⟨85, _⟩ => ⟨S256, .f32⟩
  | .hbm, ⟨86, _⟩ => ⟨S256, .f32⟩
  | .hbm, ⟨87, _⟩ => ⟨S256, .f32⟩
  | .hbm, ⟨88, _⟩ => ⟨S256, .f32⟩
  | .hbm, ⟨89, _⟩ => ⟨S256, .f32⟩
  | .hbm, ⟨90, _⟩ => ⟨S256, .f32⟩
  | .hbm, ⟨91, _⟩ => ⟨S256, .f32⟩
  | .hbm, ⟨92, _⟩ => ⟨S256, .f32⟩
  | .hbm, ⟨93, _⟩ => ⟨S256, .f32⟩
  | .hbm, ⟨94, _⟩ => ⟨S256, .f32⟩
  | .hbm, ⟨95, _⟩ => ⟨S256, .f32⟩
  | .hbm, ⟨96, _⟩ => ⟨S256, .f32⟩
  | .hbm, ⟨97, _⟩ => ⟨S256, .f32⟩
  | .hbm, ⟨98, _⟩ => ⟨S256, .f32⟩
  | .hbm, ⟨99, _⟩ => ⟨S256, .f32⟩
  | .hbm, ⟨100, _⟩ => ⟨S256, .f32⟩
  | .hbm, ⟨101, _⟩ => ⟨S_, .f32⟩
  | .hbm, ⟨102, _⟩ => ⟨S256, .f32⟩
  | .hbm, ⟨103, _⟩ => ⟨S256, .f32⟩
  | .hbm, ⟨104, _⟩ => ⟨S256, .f32⟩
  | .hbm, ⟨105, _⟩ => ⟨S256, .f32⟩
  | .hbm, ⟨106, _⟩ => ⟨S256, .f32⟩
  | .hbm, ⟨107, _⟩ => ⟨S_, .f32⟩
  | .hbm, ⟨108, _⟩ => ⟨S256, .f32⟩
  | .hbm, ⟨109, _⟩ => ⟨S256, .f32⟩
  | .hbm, ⟨110, _⟩ => ⟨S256, .f32⟩
  | .hbm, ⟨111, _⟩ => ⟨S256, .f32⟩
  | .hbm, ⟨112, _⟩ => ⟨S256, .f32⟩
  | .hbm, ⟨113, _⟩ => ⟨S256, .f32⟩
  | .hbm, ⟨114, _⟩ => ⟨S256x1, .f32⟩
  | .hbm, ⟨115, _⟩ => ⟨S256x1, .f32⟩
  | .hbm, ⟨116, _⟩ => ⟨S256x1, .f32⟩
  | .hbm, ⟨117, _⟩ => ⟨S256x1, .f32⟩
  | .hbm, ⟨118, _⟩ => ⟨S256x256, .bf16⟩
  | .hbm, ⟨119, _⟩ => ⟨S256x256, .bf16⟩
  | .hbm, ⟨120, _⟩ => ⟨S256x32768, .f32⟩
  | .local _ .vmem, ⟨0, _⟩ => ⟨S256x256, .bf16⟩
  | .local _ .vmem, ⟨1, _⟩ => ⟨S256x256, .bf16⟩
  | .local _ .vmem, ⟨2, _⟩ => ⟨S256x4096, .f32⟩
  | .local _ .vmem, ⟨3, _⟩ => ⟨S256x4096, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x4096, .f32⟩
  | .local _ .vmem, ⟨9, _⟩ => ⟨S256x4096, .f32⟩
  | _, _ => ⟨S256x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_cst_2 : Ref sig .tc := ⟨.hbm, 18, rfl⟩
abbrev main_call0_v11 : Ref sig .tc := ⟨.hbm, 19, rfl⟩
abbrev main_call0_cst_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_cst_4 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_cst_5 : Ref sig .tc := ⟨.hbm, 32, rfl⟩
abbrev main_call0_v22 : Ref sig .tc := ⟨.hbm, 33, rfl⟩
abbrev main_call0_cst_6 : Ref sig .tc := ⟨.hbm, 34, rfl⟩
abbrev main_call0_v23 : Ref sig .tc := ⟨.hbm, 35, rfl⟩
abbrev main_call0_v24 : Ref sig .tc := ⟨.hbm, 36, rfl⟩
abbrev main_call0_v25 : Ref sig .tc := ⟨.hbm, 37, rfl⟩
abbrev main_call0_v26 : Ref sig .tc := ⟨.hbm, 38, rfl⟩
abbrev main_call0_v27 : Ref sig .tc := ⟨.hbm, 39, rfl⟩
abbrev main_call0_v28 : Ref sig .tc := ⟨.hbm, 40, rfl⟩
abbrev main_call0_cst_7 : Ref sig .tc := ⟨.hbm, 41, rfl⟩
abbrev main_call0_v29 : Ref sig .tc := ⟨.hbm, 42, rfl⟩
abbrev main_call0_v30 : Ref sig .tc := ⟨.hbm, 43, rfl⟩
abbrev main_call0_v31 : Ref sig .tc := ⟨.hbm, 44, rfl⟩
abbrev main_call0_v32 : Ref sig .tc := ⟨.hbm, 45, rfl⟩
abbrev main_call0_v33 : Ref sig .tc := ⟨.hbm, 46, rfl⟩
abbrev main_call0_v34 : Ref sig .tc := ⟨.hbm, 47, rfl⟩
abbrev main_call0_v35 : Ref sig .tc := ⟨.hbm, 48, rfl⟩
abbrev main_call0_v36 : Ref sig .tc := ⟨.hbm, 49, rfl⟩
abbrev main_call0_v37 : Ref sig .tc := ⟨.hbm, 50, rfl⟩
abbrev main_call0_v38 : Ref sig .tc := ⟨.hbm, 51, rfl⟩
abbrev main_call0_v39 : Ref sig .tc := ⟨.hbm, 52, rfl⟩
abbrev main_call0_v40 : Ref sig .tc := ⟨.hbm, 53, rfl⟩
abbrev main_call0_v41 : Ref sig .tc := ⟨.hbm, 54, rfl⟩
abbrev main_call0_v42 : Ref sig .tc := ⟨.hbm, 55, rfl⟩
abbrev main_call0_v43 : Ref sig .tc := ⟨.hbm, 56, rfl⟩
abbrev main_call0_v44 : Ref sig .tc := ⟨.hbm, 57, rfl⟩
abbrev main_call0_v45 : Ref sig .tc := ⟨.hbm, 58, rfl⟩
abbrev main_call0_v46 : Ref sig .tc := ⟨.hbm, 59, rfl⟩
abbrev main_call0_v47 : Ref sig .tc := ⟨.hbm, 60, rfl⟩
abbrev main_call0_v48 : Ref sig .tc := ⟨.hbm, 61, rfl⟩
abbrev main_call0_v49 : Ref sig .tc := ⟨.hbm, 62, rfl⟩
abbrev main_call0_v50 : Ref sig .tc := ⟨.hbm, 63, rfl⟩
abbrev main_call0_v51 : Ref sig .tc := ⟨.hbm, 64, rfl⟩
abbrev main_call0_v52 : Ref sig .tc := ⟨.hbm, 65, rfl⟩
abbrev main_call0_v53 : Ref sig .tc := ⟨.hbm, 66, rfl⟩
abbrev main_call0_v54 : Ref sig .tc := ⟨.hbm, 67, rfl⟩
abbrev main_call0_v55 : Ref sig .tc := ⟨.hbm, 68, rfl⟩
abbrev main_call0_v56 : Ref sig .tc := ⟨.hbm, 69, rfl⟩
abbrev main_call0_v57 : Ref sig .tc := ⟨.hbm, 70, rfl⟩
abbrev main_call0_v58 : Ref sig .tc := ⟨.hbm, 71, rfl⟩
abbrev main_call0_v59 : Ref sig .tc := ⟨.hbm, 72, rfl⟩
abbrev main_call0_v60 : Ref sig .tc := ⟨.hbm, 73, rfl⟩
abbrev main_call0_v61 : Ref sig .tc := ⟨.hbm, 74, rfl⟩
abbrev main_call0_v62 : Ref sig .tc := ⟨.hbm, 75, rfl⟩
abbrev main_call0_v63 : Ref sig .tc := ⟨.hbm, 76, rfl⟩
abbrev main_call0_v64 : Ref sig .tc := ⟨.hbm, 77, rfl⟩
abbrev main_call0_v65 : Ref sig .tc := ⟨.hbm, 78, rfl⟩
abbrev main_call0_v66 : Ref sig .tc := ⟨.hbm, 79, rfl⟩
abbrev main_call0_v67 : Ref sig .tc := ⟨.hbm, 80, rfl⟩
abbrev main_call0_v68 : Ref sig .tc := ⟨.hbm, 81, rfl⟩
abbrev main_call0_v69 : Ref sig .tc := ⟨.hbm, 82, rfl⟩
abbrev main_call0_v70 : Ref sig .tc := ⟨.hbm, 83, rfl⟩
abbrev main_call0_v71 : Ref sig .tc := ⟨.hbm, 84, rfl⟩
abbrev main_call0_v72 : Ref sig .tc := ⟨.hbm, 85, rfl⟩
abbrev main_call0_v73 : Ref sig .tc := ⟨.hbm, 86, rfl⟩
abbrev main_call0_v74 : Ref sig .tc := ⟨.hbm, 87, rfl⟩
abbrev main_call0_v75 : Ref sig .tc := ⟨.hbm, 88, rfl⟩
abbrev main_call0_v76 : Ref sig .tc := ⟨.hbm, 89, rfl⟩
abbrev main_call0_v77 : Ref sig .tc := ⟨.hbm, 90, rfl⟩
abbrev main_call0_v78 : Ref sig .tc := ⟨.hbm, 91, rfl⟩
abbrev main_call0_v79 : Ref sig .tc := ⟨.hbm, 92, rfl⟩
abbrev main_call0_v80 : Ref sig .tc := ⟨.hbm, 93, rfl⟩
abbrev main_call0_v81 : Ref sig .tc := ⟨.hbm, 94, rfl⟩
abbrev main_call0_v82 : Ref sig .tc := ⟨.hbm, 95, rfl⟩
abbrev main_call0_v83 : Ref sig .tc := ⟨.hbm, 96, rfl⟩
abbrev main_call0_v84 : Ref sig .tc := ⟨.hbm, 97, rfl⟩
abbrev main_call0_v85 : Ref sig .tc := ⟨.hbm, 98, rfl⟩
abbrev main_call0_v86 : Ref sig .tc := ⟨.hbm, 99, rfl⟩
abbrev main_call0_v87 : Ref sig .tc := ⟨.hbm, 100, rfl⟩
abbrev main_call0_cst_8 : Ref sig .tc := ⟨.hbm, 101, rfl⟩
abbrev main_call0_v88 : Ref sig .tc := ⟨.hbm, 102, rfl⟩
abbrev main_call0_v89 : Ref sig .tc := ⟨.hbm, 103, rfl⟩
abbrev main_call0_v90 : Ref sig .tc := ⟨.hbm, 104, rfl⟩
abbrev main_call0_v91 : Ref sig .tc := ⟨.hbm, 105, rfl⟩
abbrev main_call0_v92 : Ref sig .tc := ⟨.hbm, 106, rfl⟩
abbrev main_call0_cst_9 : Ref sig .tc := ⟨.hbm, 107, rfl⟩
abbrev main_call0_v93 : Ref sig .tc := ⟨.hbm, 108, rfl⟩
abbrev main_call0_v94 : Ref sig .tc := ⟨.hbm, 109, rfl⟩
abbrev main_call0_v95 : Ref sig .tc := ⟨.hbm, 110, rfl⟩
abbrev main_call0_v96 : Ref sig .tc := ⟨.hbm, 111, rfl⟩
abbrev main_call0_v97 : Ref sig .tc := ⟨.hbm, 112, rfl⟩
abbrev main_call0_v98 : Ref sig .tc := ⟨.hbm, 113, rfl⟩
abbrev main_call0_v99 : Ref sig .tc := ⟨.hbm, 114, rfl⟩
abbrev main_call0_v100 : Ref sig .tc := ⟨.hbm, 115, rfl⟩
abbrev main_call0_v101 : Ref sig .tc := ⟨.hbm, 116, rfl⟩
abbrev main_call0_v102 : Ref sig .tc := ⟨.hbm, 117, rfl⟩
abbrev main_call0_v103 : Ref sig .tc := ⟨.hbm, 118, rfl⟩
abbrev main_call0_v104 : Ref sig .tc := ⟨.hbm, 119, rfl⟩
abbrev main_v0 : Ref sig .tc := ⟨.hbm, 120, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S256x256_S256_d1 : S256x256.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  reducesTo_S16x256_S256_d0 : S16x256.ReducesTo [0] S256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  slices_S16x256_S1x256_0_0 : S16x256.Slices ![0, 0] S1x256
  shapeCasts_S1x256_S256 : S1x256.ShapeCasts S256
  slices_S16x256_S1x256_1_0 : S16x256.Slices ![1, 0] S1x256
  slices_S16x256_S1x256_2_0 : S16x256.Slices ![2, 0] S1x256
  slices_S16x256_S1x256_3_0 : S16x256.Slices ![3, 0] S1x256
  slices_S16x256_S1x256_4_0 : S16x256.Slices ![4, 0] S1x256
  slices_S16x256_S1x256_5_0 : S16x256.Slices ![5, 0] S1x256
  slices_S16x256_S1x256_6_0 : S16x256.Slices ![6, 0] S1x256
  slices_S16x256_S1x256_7_0 : S16x256.Slices ![7, 0] S1x256
  slices_S16x256_S1x256_8_0 : S16x256.Slices ![8, 0] S1x256
  slices_S16x256_S1x256_9_0 : S16x256.Slices ![9, 0] S1x256
  slices_S16x256_S1x256_10_0 : S16x256.Slices ![10, 0] S1x256
  slices_S16x256_S1x256_11_0 : S16x256.Slices ![11, 0] S1x256
  slices_S16x256_S1x256_12_0 : S16x256.Slices ![12, 0] S1x256
  slices_S16x256_S1x256_13_0 : S16x256.Slices ![13, 0] S1x256
  slices_S16x256_S1x256_14_0 : S16x256.Slices ![14, 0] S1x256
  slices_S16x256_S1x256_15_0 : S16x256.Slices ![15, 0] S1x256
  shapeCasts_S256_S256x1 : S256.ShapeCasts S256x1
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S256x256.size a
  hwx0_0 : ∀ i : grid0.Coords, EltTy.bits .bf16 = 32 ∨ (Rect.block (s := S256x256) S256x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S256x32768.size a
  hwx0_2 : ∀ i : grid0.Coords, EltTy.bits .f32 = 32 ∨ (Rect.block (s := S256x32768) S256x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x4096.size a ≤ S256x32768.size a
  hwx0_7 : ∀ i : grid0.Coords, EltTy.bits .f32 = 32 ∨ (Rect.block (s := S256x32768) S256x4096.size (cc0_transform_7 i) (hinb0_7 i)).WholeWords (EltTy.packing .f32)

variable [Facts₀]

def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_call0_v103) S256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v104) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v99) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v100) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v101) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v102) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S256x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x32768 : Shape := ⟨2, ![256, 32768]⟩
abbrev S256x256 : Shape := ⟨2, ![256, 256]⟩
abbrev S16x256 : Shape := ⟨2, ![16, 256]⟩
abbrev S_ : Shape := ⟨0, ![]⟩
abbrev S256 : Shape := ⟨1, ![256]⟩
abbrev S256x1 : Shape := ⟨2, ![256, 1]⟩
abbrev S1x256 : Shape := ⟨2, ![1, 256]⟩
abbrev S1x256x32768 : Shape := ⟨3, ![1, 256, 32768]⟩
abbrev S16x256x32768 : Shape := ⟨3, ![16, 256, 32768]⟩
abbrev S16x256x1 : Shape := ⟨3, ![16, 256, 1]⟩

abbrev nBuf : Space → Nat
  | .hbm => 107
  | .vmem => 0
  | .smem => 0
  | _ => 0

abbrev bufTy : (tb : Table) → Fin (tcTables nBuf tb) → BufTy
  | .hbm, ⟨0, _⟩ => ⟨S256x32768, .f32⟩
  | .hbm, ⟨1, _⟩ => ⟨S256x256, .f32⟩
  | .hbm, ⟨2, _⟩ => ⟨S256x256, .f32⟩
  | .hbm, ⟨3, _⟩ => ⟨S16x256, .f32⟩
  | .hbm, ⟨4, _⟩ => ⟨S_, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S256x1, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S256x1, .f32⟩
  | .hbm, ⟨24, _⟩ => ⟨S256x256, .f32⟩
  | .hbm, ⟨25, _⟩ => ⟨S256x256, .f32⟩
  | .hbm, ⟨26, _⟩ => ⟨S256x256, .f32⟩
  | .hbm, ⟨27, _⟩ => ⟨S_, .f32⟩
  | .hbm, ⟨28, _⟩ => ⟨S256, .f32⟩
  | .hbm, ⟨29, _⟩ => ⟨S256x1, .f32⟩
  | .hbm, ⟨30, _⟩ => ⟨S256x256, .f32⟩
  | .hbm, ⟨31, _⟩ => ⟨S256x256, .f32⟩
  | .hbm, ⟨32, _⟩ => ⟨S_, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S1x256, .f32⟩
  | .hbm, ⟨38, _⟩ => ⟨S16x256, .f32⟩
  | .hbm, ⟨39, _⟩ => ⟨S16x256, .f32⟩
  | .hbm, ⟨40, _⟩ => ⟨S16x256, .f32⟩
  | .hbm, ⟨41, _⟩ => ⟨S_, .f32⟩
  | .hbm, ⟨42, _⟩ => ⟨S256, .f32⟩
  | .hbm, ⟨43, _⟩ => ⟨S1x256, .f32⟩
  | .hbm, ⟨44, _⟩ => ⟨S16x256, .f32⟩
  | .hbm, ⟨45, _⟩ => ⟨S16x256, .f32⟩
  | .hbm, ⟨46, _⟩ => ⟨S256x32768, .f32⟩
  | .hbm, ⟨47, _⟩ => ⟨S256x32768, .f32⟩
  | .hbm, ⟨48, _⟩ => ⟨S256x32768, .f32⟩
  | .hbm, ⟨49, _⟩ => ⟨S256x32768, .f32⟩
  | .hbm, ⟨50, _⟩ => ⟨S256x32768, .f32⟩
  | .hbm, ⟨51, _⟩ => ⟨S256x32768, .f32⟩
  | .hbm, ⟨52, _⟩ => ⟨S_, .f32⟩
  | .hbm, ⟨53, _⟩ => ⟨S256x32768, .f32⟩
  | .hbm, ⟨54, _⟩ => ⟨S256x32768, .f32⟩
  | .hbm, ⟨55, _⟩ => ⟨S256x32768, .f32⟩
  | .hbm, ⟨56, _⟩ => ⟨S_, .f32⟩
  | .hbm, ⟨57, _⟩ => ⟨S256x32768, .f32⟩
  | .hbm, ⟨58, _⟩ => ⟨S_, .f32⟩
  | .hbm, ⟨59, _⟩ => ⟨S256x32768, .f32⟩
  | .hbm, ⟨60, _⟩ => ⟨S256x32768, .f32⟩
  | .hbm, ⟨61, _⟩ => ⟨S256x32768, .f32⟩
  | .hbm, ⟨62, _⟩ => ⟨S_, .f32⟩
  | .hbm, ⟨63, _⟩ => ⟨S256x32768, .f32⟩
  | .hbm, ⟨64, _⟩ => ⟨S256x32768, .f32⟩
  | .hbm, ⟨65, _⟩ => ⟨S_, .f32⟩
  | .hbm, ⟨66, _⟩ => ⟨S256x32768, .f32⟩
  | .hbm, ⟨67, _⟩ => ⟨S256x32768, .f32⟩
  | .hbm, ⟨68, _⟩ => ⟨S_, .f32⟩
  | .hbm, ⟨69, _⟩ => ⟨S256x32768, .f32⟩
  | .hbm, ⟨70, _⟩ => ⟨S256x32768, .f32⟩
  | .hbm, ⟨71, _⟩ => ⟨S_, .f32⟩
  | .hbm, ⟨72, _⟩ => ⟨S256x32768, .f32⟩
  | .hbm, ⟨73, _⟩ => ⟨S256x32768, .f32⟩
  | .hbm, ⟨74, _⟩ => ⟨S256x32768, .f32⟩
  | .hbm, ⟨75, _⟩ => ⟨S_, .f32⟩
  | .hbm, ⟨76, _⟩ => ⟨S256x32768, .f32⟩
  | .hbm, ⟨77, _⟩ => ⟨S256x32768, .f32⟩
  | .hbm, ⟨78, _⟩ => ⟨S_, .f32⟩
  | .hbm, ⟨79, _⟩ => ⟨S256x32768, .f32⟩
  | .hbm, ⟨80, _⟩ => ⟨S256x32768, .f32⟩
  | .hbm, ⟨81, _⟩ => ⟨S256x32768, .f32⟩
  | .hbm, ⟨82, _⟩ => ⟨S_, .f32⟩
  | .hbm, ⟨83, _⟩ => ⟨S256x32768, .f32⟩
  | .hbm, ⟨84, _⟩ => ⟨S256x32768, .f32⟩
  | .hbm, ⟨85, _⟩ => ⟨S1x256x32768, .f32⟩
  | .hbm, ⟨86, _⟩ => ⟨S1x256x32768, .f32⟩
  | .hbm, ⟨87, _⟩ => ⟨S1x256x32768, .f32⟩
  | .hbm, ⟨88, _⟩ => ⟨S1x256x32768, .f32⟩
  | .hbm, ⟨89, _⟩ => ⟨S1x256x32768, .f32⟩
  | .hbm, ⟨90, _⟩ => ⟨S1x256x32768, .f32⟩
  | .hbm, ⟨91, _⟩ => ⟨S1x256x32768, .f32⟩
  | .hbm, ⟨92, _⟩ => ⟨S1x256x32768, .f32⟩
  | .hbm, ⟨93, _⟩ => ⟨S1x256x32768, .f32⟩
  | .hbm, ⟨94, _⟩ => ⟨S1x256x32768, .f32⟩
  | .hbm, ⟨95, _⟩ => ⟨S1x256x32768, .f32⟩
  | .hbm, ⟨96, _⟩ => ⟨S1x256x32768, .f32⟩
  | .hbm, ⟨97, _⟩ => ⟨S1x256x32768, .f32⟩
  | .hbm, ⟨98, _⟩ => ⟨S1x256x32768, .f32⟩
  | .hbm, ⟨99, _⟩ => ⟨S1x256x32768, .f32⟩
  | .hbm, ⟨100, _⟩ => ⟨S1x256x32768, .f32⟩
  | .hbm, ⟨101, _⟩ => ⟨S16x256x32768, .f32⟩
  | .hbm, ⟨102, _⟩ => ⟨S16x256x1, .f32⟩
  | .hbm, ⟨103, _⟩ => ⟨S16x256x32768, .f32⟩
  | .hbm, ⟨104, _⟩ => ⟨S16x256x32768, .f32⟩
  | .hbm, ⟨105, _⟩ => ⟨S_, .f32⟩
  | .hbm, ⟨106, _⟩ => ⟨S256x32768, .f32⟩
  | _, _ => ⟨S256x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_cst_14 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_15 : Ref sig .tc := ⟨.hbm, 75, rfl⟩
abbrev main_v55 : Ref sig .tc := ⟨.hbm, 76, rfl⟩
abbrev main_v56 : Ref sig .tc := ⟨.hbm, 77, rfl⟩
abbrev main_cst_16 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_17 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_18 : Ref sig .tc := ⟨.hbm, 105, rfl⟩
abbrev main_v82 : Ref sig .tc := ⟨.hbm, 106, rfl⟩

abbrev nD : Nat := 1
abbrev τ : Topo := Topo.v7x

variable {F : FTy → Type} [FloatOps F]

class Facts₀ : Prop where
  reducesTo_S256x256_S256_d1 : S256x256.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  reducesTo_S16x256_S256_d0 : S16x256.ReducesTo [0] S256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S256x32768 : S_.BroadcastsInDim S256x32768 (![] : Fin 0 → Fin S256x32768.rank)
  bcast_S256x32768_S1x256x32768_1_2 : S256x32768.BroadcastsInDim S1x256x32768 (![1, 2] : Fin 2 → Fin S1x256x32768.rank)
  concatenates_S1x256x32768_S1x256x32768_S1x256x32768_S1x256x32768_S1x256x32768_S1x256x32768_S1x256x32768_S1x256x32768_S1x256x32768_S1x256x32768_S1x256x32768_S1x256x32768_S1x256x32768_S1x256x32768_S1x256x32768_S1x256x32768_S16x256x32768_d0 : Shape.Concatenates [S1x256x32768, S1x256x32768, S1x256x32768, S1x256x32768, S1x256x32768, S1x256x32768, S1x256x32768, S1x256x32768, S1x256x32768, S1x256x32768, S1x256x32768, S1x256x32768, S1x256x32768, S1x256x32768, S1x256x32768, S1x256x32768] S16x256x32768 0
  bcast_S16x256_S16x256x1_0_1 : S16x256.BroadcastsInDim S16x256x1 (![0, 1] : Fin 2 → Fin S16x256x1.rank)
  bcast_S16x256x1_S16x256x32768_0_1_2 : S16x256x1.BroadcastsInDim S16x256x32768 (![0, 1, 2] : Fin 3 → Fin S16x256x32768.rank)
  reducesTo_S16x256x32768_S256x32768_d0 : S16x256x32768.ReducesTo [0] S256x32768
  dot_S256x256_S256x32768_S256x32768_1_0_0_1_n_n_wf : DotDims.WF S256x256 S256x32768 S256x32768 [1] [0] [0] [1] [] []

variable [Facts₀]

def dot_S256x256_S256x32768_S256x32768_1_0_0_1_n_n : DotDims S256x256 S256x32768 S256x32768 where
  lhsContracting := [1]
  rhsContracting := [0]
  lhsNonContracting := [0]
  rhsNonContracting := [1]
  lhsBatch := []
  rhsBatch := []
  wf := dot_S256x256_S256x32768_S256x32768_1_0_0_1_n_n_wf

class Facts : Prop extends Facts₀ where

variable [Facts]
-- ==== Proof.InputsReal.lean ====
/-
  What the precondition gives: every entry of the four argument arrays is a real number.

  The precondition is the conjunction, over the four arrays, of "every entry has |x| < +∞". Read at the one index of
  its scalar result it splits into four all-reductions by `and`; each of those being 1 makes its predicate 1 at every
  entry; and on the extended reals |x| = max x (-x) is below +∞ exactly when x is neither infinity.
-/
import proofs.«145931_j65429531787948_2_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.GateMix

open Idealize.ShloMosaic Cert.Pre_finite_inputs

/-- On the extended reals, |x| < +∞ says that x is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | coe r => exact ⟨r, rfl⟩
  | top => simp [Ideal.cmp] at h

variable [Cert.Pre_finite_inputs.Facts]

instance : Subsingleton S_.Idx := ⟨fun a b => funext fun d => d.elim0⟩

/-- Under the precondition each of the four argument arrays holds real numbers only. -/
theorem real_of_pre (x0 : FVec Ideal S256x32768 .f32) (x1 x2 : FVec Ideal S256x256 .f32) (x3 : FVec Ideal S16x256 .f32)
    (h : fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  obtain ⟨h012, h3⟩ := IntOp.andi_eq_one.1 (congrFun h ValueIdx.ix0 : IntOp.andi _ _ = 1#1)
  obtain ⟨h01, h2⟩ := IntOp.andi_eq_one.1 (h012 : IntOp.andi _ _ = 1#1)
  obtain ⟨h0, h1⟩ := IntOp.andi_eq_one.1 (h01 : IntOp.andi _ _ = 1#1)
  exact ⟨fun i => real_of_abs_lt_inf (x0 i) (Host.reduce_andi_all _ _ _ _ _ h0 i),
    fun i => real_of_abs_lt_inf (x1 i) (Host.reduce_andi_all _ _ _ _ _ h1 i),
    fun i => real_of_abs_lt_inf (x2 i) (Host.reduce_andi_all _ _ _ _ _ h2 i),
    fun i => real_of_abs_lt_inf (x3 i) (Host.reduce_andi_all _ _ _ _ _ h3 i)⟩

end Cert.GateMix

end
-- ==== Proof.ERealFacts.lean ====
/-
  Facts about the extended reals that the softmax-gated mix needs, free of any program.

  * the four float words the two programs spell (0, 1, 2 and -∞) as the extended reals they denote;
  * a finite sum of real numbers, read in the extended reals, is the sum of their images;
  * an inner product of reals is real;
  * the running maximum of finitely many real numbers, started from -∞ over a nonempty index set, is a real number;
  * one entry of a softmax of real numbers, computed the stable way (subtract a real shift M, exponentiate,
    divide by 0 plus the sum of the exponentials), is a real number: every exponential is a positive real, so the
    divisor is a positive real and the quotient is an ordinary product with its reciprocal;
  * the sixteen soft two-input gates, weighted and summed, collapse onto the basis 1, A, B, A·B: a polynomial identity over
    the reals, carried to the extended reals where every quantity involved is the image of a real.
-/
import Idealize.ShloMosaic.PureOps.Ideal
import Idealize.ShloMosaic.PureOps.Ideal.Laws

noncomputable section

namespace Cert.GateMix

open Idealize.ShloMosaic

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

/-- The image of a finite sum of reals is the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over sixteen indices, written out. -/
theorem sum_fin16 {M : Type} [AddCommMonoid M] (f : Fin 16 → M) :
    ∑ k, f k = f 0 + f 1 + f 2 + f 3 + f 4 + f 5 + f 6 + f 7 + f 8 + f 9 + f 10 + f 11 + f 12 + f 13 + f 14 + f 15 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_eight]
  rfl

/-- A function into the extended reals all of whose values are real is the image of a real function. -/
theorem exists_real_fun {ι : Type} (g : ι → EReal) (hg : ∀ k, ∃ r : ℝ, g k = (r : EReal)) :
    ∃ w : ι → ℝ, ∀ k, g k = (w k : EReal) :=
  ⟨fun k => (hg k).choose, fun k => (hg k).choose_spec⟩

/-- An inner product of two families of reals is real. -/
theorem dot_real {n : ℕ} (f g : Fin n → EReal) (hf : ∀ k, ∃ r : ℝ, f k = (r : EReal)) (hg : ∀ k, ∃ r : ℝ, g k = (r : EReal)) :
    ∃ a : ℝ, ∑ k, f k * g k = (a : EReal) := by
  obtain ⟨u, hu⟩ := exists_real_fun f hf
  obtain ⟨v, hv⟩ := exists_real_fun g hg
  refine ⟨∑ k, u k * v k, ?_⟩
  rw [coe_sum]
  exact Finset.sum_congr rfl fun k _ => by rw [hu, hv, EReal.coe_mul]

/-- The maximum of -∞ with the running maximum, from -∞, of finitely many reals over a nonempty index set is real. -/
theorem max_fold_real {n : ℕ} (hn : 0 < n) (g : Fin n → EReal) (hg : ∀ k, ∃ r : ℝ, g k = (r : EReal)) :
    ∃ μ : ℝ, max (⊥ : EReal) ((Finset.univ : Finset (Fin n)).fold max (⊥ : EReal) g) = (μ : EReal) := by
  obtain ⟨w, hw⟩ := exists_real_fun g hg
  have htop : (Finset.univ : Finset (Fin n)).fold max (⊥ : EReal) g < ⊤ :=
    (Finset.fold_max_lt _).2 ⟨bot_lt_top, fun k _ => by rw [hw k]; exact EReal.coe_lt_top _⟩
  have hbot : (⊥ : EReal) < (Finset.univ : Finset (Fin n)).fold max (⊥ : EReal) g :=
    (Finset.lt_fold_max _).2 (Or.inr ⟨⟨0, hn⟩, Finset.mem_univ _, by rw [hw]; exact EReal.bot_lt_coe _⟩)
  refine ⟨((Finset.univ : Finset (Fin n)).fold max (⊥ : EReal) g).toReal, ?_⟩
  rw [max_eq_right bot_le, EReal.coe_toReal htop.ne hbot.ne']

/-- One entry of a stable softmax of reals is real: `exp (a - M) / (0 + ∑ k, exp (w k - M))` with `a`, `M` real (for the
    softmax `a` is one of the `w k`; that is not needed for the quotient to be real). -/
theorem softmax_entry_real {n : ℕ} (hn : 0 < n) (w : Fin n → ℝ) (μ a : ℝ) :
    ∃ r : ℝ, Ideal.div (Ideal.exp ((a : EReal) - (μ : EReal)))
      (((0 : ℝ) : EReal) + ∑ k : Fin n, Ideal.exp ((w k : EReal) - (μ : EReal))) = (r : EReal) := by
  have hexp : ∀ k, Ideal.exp ((w k : EReal) - (μ : EReal)) = ((Real.exp (w k - μ) : ℝ) : EReal) := fun k => by
    rw [← EReal.coe_sub]; rfl
  have hexpa : Ideal.exp ((a : EReal) - (μ : EReal)) = ((Real.exp (a - μ) : ℝ) : EReal) := by
    rw [← EReal.coe_sub]; rfl
  simp only [hexp, hexpa]
  rw [← coe_sum, ← EReal.coe_add]
  have hpos : (0 : ℝ) < 0 + ∑ k : Fin n, Real.exp (w k - μ) := by
    rw [zero_add]
    exact Finset.sum_pos (fun k _ => Real.exp_pos _) ⟨⟨0, hn⟩, Finset.mem_univ _⟩
  rw [Ideal.div_coe hpos.ne', ← EReal.coe_mul]
  exact ⟨_, rfl⟩

/-! ## The sixteen soft gates collapse onto 1, A, B, A·B -/

/-- What the kernel computes from four coefficients and the two inner products. -/
def combine (cc ca cb cab A B : EReal) : EReal := (cc + cb * B) + A * (ca + cab * B)

/-- Over the reals: the sixteen soft two-input gates of (a, b), each weighted by its p k and summed (from 0, in the order
    false, and, a∧¬b, a, ¬a∧b, b, xor, or, nor, xnor, ¬b, b→a, ¬a, a→b, nand, true), are an affine combination of 1, a, b and
    a·b; collecting the weights by basis term gives the four coefficients on the right. -/
theorem gates_collapse (a b : ℝ) (p : Fin 16 → ℝ) :
    0 + (0 * p 0 + a * b * p 1 + (a - a * b) * p 2 + a * p 3 + (b - a * b) * p 4 + b * p 5
        + (a + b - 2 * (a * b)) * p 6 + (a + b - a * b) * p 7 + (1 - (a + b - a * b)) * p 8
        + (1 - (a + b - 2 * (a * b))) * p 9 + (1 - b) * p 10 + (1 - b + a * b) * p 11 + (1 - a) * p 12
        + (1 - a + a * b) * p 13 + (1 - a * b) * p 14 + 1 * p 15)
      = ((p 8 + p 9 + p 10 + p 11 + p 12 + p 13 + p 14 + p 15)
          + (p 4 + p 5 + p 6 + p 7 - p 8 - p 9 - p 10 - p 11) * b)
        + a * ((p 2 + p 3 + p 6 + p 7 - p 8 - p 9 - p 12 - p 13)
          + (p 1 - p 2 - p 4 - 2 * p 6 - p 7 + p 8 + 2 * p 9 + p 11 + p 13 - p 14) * b) := by
  ring

/-- The same on the extended reals, for real a, b and real weights, with the float words 0, 1 and 2 the two programs spell:
    the left side is the reference's weighted sum of the gate table, the right side the kernel's combination of its four
    coefficient sums. Every quantity is the image of a real, so both sides are images of the two sides above. -/
theorem gates_collapse_ereal (a b : ℝ) (p : Fin 16 → ℝ) :
    Ideal.ofBits .f32 0x00000000#32
      + (Ideal.ofBits .f32 0x00000000#32 * (p 0 : EReal) + (a : EReal) * (b : EReal) * (p 1 : EReal)
        + ((a : EReal) - (a : EReal) * (b : EReal)) * (p 2 : EReal) + (a : EReal) * (p 3 : EReal)
        + ((b : EReal) - (a : EReal) * (b : EReal)) * (p 4 : EReal) + (b : EReal) * (p 5 : EReal)
        + ((a : EReal) + (b : EReal) - Ideal.ofBits .f32 0x40000000#32 * ((a : EReal) * (b : EReal))) * (p 6 : EReal)
        + ((a : EReal) + (b : EReal) - (a : EReal) * (b : EReal)) * (p 7 : EReal)
        + (Ideal.ofBits .f32 0x3F800000#32 - ((a : EReal) + (b : EReal) - (a : EReal) * (b : EReal))) * (p 8 : EReal)
        + (Ideal.ofBits .f32 0x3F800000#32 - ((a : EReal) + (b : EReal) - Ideal.ofBits .f32 0x40000000#32 * ((a : EReal) * (b : EReal)))) * (p 9 : EReal)
        + (Ideal.ofBits .f32 0x3F800000#32 - (b : EReal)) * (p 10 : EReal)
        + (Ideal.ofBits .f32 0x3F800000#32 - (b : EReal) + (a : EReal) * (b : EReal)) * (p 11 : EReal)
        + (Ideal.ofBits .f32 0x3F800000#32 - (a : EReal)) * (p 12 : EReal)
        + (Ideal.ofBits .f32 0x3F800000#32 - (a : EReal) + (a : EReal) * (b : EReal)) * (p 13 : EReal)
        + (Ideal.ofBits .f32 0x3F800000#32 - (a : EReal) * (b : EReal)) * (p 14 : EReal)
        + Ideal.ofBits .f32 0x3F800000#32 * (p 15 : EReal))
      = combine
          ((p 8 : EReal) + (p 9 : EReal) + (p 10 : EReal) + (p 11 : EReal) + (p 12 : EReal) + (p 13 : EReal) + (p 14 : EReal) + (p 15 : EReal))
          ((p 2 : EReal) + (p 3 : EReal) + (p 6 : EReal) + (p 7 : EReal) - (p 8 : EReal) - (p 9 : EReal) - (p 12 : EReal) - (p 13 : EReal))
          ((p 4 : EReal) + (p 5 : EReal) + (p 6 : EReal) + (p 7 : EReal) - (p 8 : EReal) - (p 9 : EReal) - (p 10 : EReal) - (p 11 : EReal))
          ((p 1 : EReal) - (p 2 : EReal) - (p 4 : EReal) - Ideal.ofBits .f32 0x40000000#32 * (p 6 : EReal) - (p 7 : EReal) + (p 8 : EReal)
            + Ideal.ofBits .f32 0x40000000#32 * (p 9 : EReal) + (p 11 : EReal) + (p 13 : EReal) - (p 14 : EReal))
          (a : EReal) (b : EReal) := by
  rw [ofBits_zero, ofBits_one, ofBits_two]
  unfold combine
  simp only [← EReal.coe_mul, ← EReal.coe_add, ← EReal.coe_sub]
  exact congrArg _ (gates_collapse a b p)

end Cert.GateMix

end
-- ==== Proof.KernelBody.lean ====
/-
  The kernel body's arithmetic at one element of its output block.

  With A = pa · x and B = pb · x (two matrix products of the 256×256 weight blocks with the 256×4096 block of x, each
  into a zero accumulator) and four 256×1 coefficient columns cc, ca, cb, cab broadcast along the lanes, the body stores
      (cc + cb · B) + A · (ca + cab · B).
  At row s and lane q this is the same expression of the scalars cc s, ca s, cb s, cab s and of the two inner products
      A(s, q) = ∑ k, pa(s, k) · x(k, q),   B(s, q) = ∑ k, pb(s, k) · x(k, q):
  the narrowing of x to bf16 is the identity on extended reals, a shape cast to the same shape is the identity, a column
  broadcast along the lanes reads its row's entry, and a matrix product into a zero accumulator is the plain sum over the
  one contracted axis.
-/
import proofs.«145931_j65429531787948_2_alg».proof.Proof.Gen.KernelIdeal.Skeleton
import proofs.«145931_j65429531787948_2_alg».proof.Proof.ERealFacts
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Cert.GateMix Idealize.ShloMosaic Idealize.ShloMosaic.ValueIdx

/-- The left operand's index at output (i, ·) and contraction index q: row i 0 … -/
theorem lhs_0 (i : S256x4096.Idx) (q : dot_S256x256_S256x4096_S256x4096_1_0_0_1_n_n.contr.Idx) :
    (dot_S256x256_S256x4096_S256x4096_1_0_0_1_n_n.lhsIdx i q 0).val = (i 0).val := by
  unfold DotDims.lhsIdx
  rw [dif_neg (show ¬(0 : Fin S256x256.rank) ∈ dot_S256x256_S256x4096_S256x4096_1_0_0_1_n_n.lhsBatch by decide), dif_pos (show (0 : Fin S256x256.rank) ∈ dot_S256x256_S256x4096_S256x4096_1_0_0_1_n_n.lhsNonContracting by decide)]
  rfl
/-- … and column q. -/
theorem lhs_1 (i : S256x4096.Idx) (q : dot_S256x256_S256x4096_S256x4096_1_0_0_1_n_n.contr.Idx) :
    (dot_S256x256_S256x4096_S256x4096_1_0_0_1_n_n.lhsIdx i q 1).val = (q ⟨0, by decide⟩).val :=
  dot_S256x256_S256x4096_S256x4096_1_0_0_1_n_n.lhsIdx_val_of_single rfl i q
/-- The right operand's index: row q … -/
theorem rhs_0 (i : S256x4096.Idx) (q : dot_S256x256_S256x4096_S256x4096_1_0_0_1_n_n.contr.Idx) :
    (dot_S256x256_S256x4096_S256x4096_1_0_0_1_n_n.rhsIdx i q 0).val = (q ⟨0, by decide⟩).val :=
  dot_S256x256_S256x4096_S256x4096_1_0_0_1_n_n.rhsIdx_val_of_single rfl i q
/-- … and column i 1. -/
theorem rhs_1 (i : S256x4096.Idx) (q : dot_S256x256_S256x4096_S256x4096_1_0_0_1_n_n.contr.Idx) :
    (dot_S256x256_S256x4096_S256x4096_1_0_0_1_n_n.rhsIdx i q 1).val = (i 1).val := by
  unfold DotDims.rhsIdx
  rw [dif_neg (show ¬(1 : Fin S256x4096.rank) ∈ dot_S256x256_S256x4096_S256x4096_1_0_0_1_n_n.rhsBatch by decide), dif_pos (show (1 : Fin S256x4096.rank) ∈ dot_S256x256_S256x4096_S256x4096_1_0_0_1_n_n.rhsNonContracting by decide)]
  rfl

/-- A matrix product into the zero accumulator, at (s, q): the inner product of row s with column q. -/
theorem matmul_at (l : FVec Ideal S256x256 .bf16) (r : FVec Ideal S256x4096 .bf16) (s : Fin 256) (q : Fin 4096) :
    matmul (F := Ideal) dot_S256x256_S256x4096_S256x4096_1_0_0_1_n_n none l r (constant (F := Ideal) S256x4096 .f32 0x00000000#32) (ix2 s q)
      = ∑ k : Fin 256, l (ix2 s k) * r (ix2 k q) := by
  simp only [matmul]
  rw [Ideal.matmul_constant_zero_apply, ← Equiv.sum_comp (ValueIdx.contrEquiv1 dot_S256x256_S256x4096_S256x4096_1_0_0_1_n_n 256 rfl rfl).symm]
  refine Finset.sum_congr rfl fun k _ => ?_
  have hk := ValueIdx.contrEquiv1_symm_val dot_S256x256_S256x4096_S256x4096_1_0_0_1_n_n 256 rfl rfl k
  have el : dot_S256x256_S256x4096_S256x4096_1_0_0_1_n_n.lhsIdx (ix2 s q) ((ValueIdx.contrEquiv1 dot_S256x256_S256x4096_S256x4096_1_0_0_1_n_n 256 rfl rfl).symm k) = ix2 s k := funext fun a => Fin.ext (by
    match a with
    | ⟨0, _⟩ => exact lhs_0 _ _
    | ⟨1, _⟩ => exact (lhs_1 _ _).trans hk)
  have er : dot_S256x256_S256x4096_S256x4096_1_0_0_1_n_n.rhsIdx (ix2 s q) ((ValueIdx.contrEquiv1 dot_S256x256_S256x4096_S256x4096_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- A 256×1 column broadcast along the 4096 lanes reads, at (s, q), its entry of row s. -/
theorem column_at (y : FVec Ideal S256x1 .f32) (s : Fin 256) (q : Fin 4096) :
    broadcastTo S256x4096 y broadcasts_S256x1_S256x4096 (ix2 s q) = y (ix2 s 0) :=
  broadcastTo_apply y broadcasts_S256x1_S256x4096 (ix2 s q) (ix2 s 0) (fun a => match a with
    | ⟨0, _⟩ => by show s.val = if (256 : Nat) = 1 then 0 else s.val; rw [if_neg (by decide)]
    | ⟨1, _⟩ => by show (0 : Nat) = if (1 : Nat) = 1 then 0 else q.val; rw [if_pos rfl])

/-- The stored value at row s, lane q: the combination of the four coefficients of row s with the two inner products. -/
theorem pay_at (v0 v2 : Vec Ideal S256x256 .bf16) (v4 : Vec Ideal S256x4096 .f32) (v8 v10 v12 v14 : Vec Ideal S256x1 .f32)
    (s : Fin 256) (q : Fin 4096) :
    k0_pay1 (F := Ideal) v0 v2 v4 v8 v10 v12 v14 (ix2 s q)
      = combine (v8 (ix2 s 0)) (v10 (ix2 s 0)) (v12 (ix2 s 0)) (v14 (ix2 s 0))
          (∑ k : Fin 256, v0 (ix2 s k) * v4 (ix2 k q)) (∑ k : Fin 256, v2 (ix2 s k) * v4 (ix2 k q)) := by
  unfold k0_pay1 combine
  simp only [addf_apply, mulf_apply, shapeCast_self, column_at, matmul_at, truncf_apply]

/-- The same at any index j of the block, its two coordinates named. -/
theorem pay_read (v0 v2 : Vec Ideal S256x256 .bf16) (v4 : Vec Ideal S256x4096 .f32) (v8 v10 v12 v14 : Vec Ideal S256x1 .f32)
    (j : S256x4096.Idx) (s : Fin 256) (q : Fin 4096) (hs : (j 0).val = s.val) (hq : (j 1).val = q.val) :
    k0_pay1 (F := Ideal) v0 v2 v4 v8 v10 v12 v14 j
      = combine (v8 (ix2 s 0)) (v10 (ix2 s 0)) (v12 (ix2 s 0)) (v14 (ix2 s 0))
          (∑ k : Fin 256, v0 (ix2 s k) * v4 (ix2 k q)) (∑ k : Fin 256, v2 (ix2 s k) * v4 (ix2 k q)) := by
  have hj : j = ix2 s q := funext fun a => Fin.ext (by match a with | ⟨0, _⟩ => exact hs | ⟨1, _⟩ => exact hq)
  rw [hj]
  exact pay_at v0 v2 v4 v8 v10 v12 v14 s q

end Cert.KernelIdeal.Body

end
-- ==== Proof.KernelArray.lean ====
/-
  The kernel's output array after the run, as one function of the seven arrays the region reads.

  The grid has eight points; point t reads the two whole 256×256 weight matrices, the four whole 256×1 coefficient
  columns, and columns [4096·t, 4096·t + 4096) of x, and writes the same columns of the output. So the block written at
  point t is the restriction to those columns of ONE whole-array function — at (s, b): the combination of the four
  coefficients of row s with the inner products of row s of the two weight matrices against column b of x — and the eight
  column bands cover the array.
-/
import proofs.«145931_j65429531787948_2_alg».proof.Proof.Gen.KernelIdeal.Value
import proofs.«145931_j65429531787948_2_alg».proof.Proof.KernelBody

set_option maxRecDepth 16384

noncomputable section

namespace Cert.KernelIdeal.WholeArray

open Cert.KernelIdeal Cert.KernelIdeal.Gen Cert.KernelIdeal.Value Cert.GateMix
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The output as a whole-array function: at (s, b) the coefficients of row s combined with the two inner products of row s
    against column b. -/
def mix (pa pb : S256x256.Idx → EReal) (x : S256x32768.Idx → EReal) (cc ca cb cab : S256x1.Idx → EReal) :
    S256x32768.Idx → EReal := fun i =>
  combine (cc (ix2 (⟨(i 0).val, (i 0).isLt⟩ : Fin 256) 0)) (ca (ix2 (⟨(i 0).val, (i 0).isLt⟩ : Fin 256) 0))
    (cb (ix2 (⟨(i 0).val, (i 0).isLt⟩ : Fin 256) 0)) (cab (ix2 (⟨(i 0).val, (i 0).isLt⟩ : Fin 256) 0))
    (∑ k : Fin 256, pa (ix2 (⟨(i 0).val, (i 0).isLt⟩ : Fin 256) k) * x (ix2 k (⟨(i 1).val, (i 1).isLt⟩ : Fin 32768)))
    (∑ k : Fin 256, pb (ix2 (⟨(i 0).val, (i 0).isLt⟩ : Fin 256) k) * x (ix2 k (⟨(i 1).val, (i 1).isLt⟩ : Fin 32768)))

theorem hz : (![0, 0] : Fin 2 → Nat) = fun _ => 0 := funext fun a => by fin_cases a <;> rfl

/-- The printed index maps, decided over the eight points: every input window but x sits at block (0, 0); x and the output
    sit at block (0, t). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-- Column q of band t is column 4096·t + q of the array. -/
theorem band_lt (t : Fin cfg0.N) (q : Fin 4096) : t.val * 4096 + q.val < 32768 := by
  have ht : t.val < 8 := t.isLt
  have hq := q.isLt
  omega

/-! ## Each input window's block at point t, read at an element -/

theorem blk_pa (c : Dev nD) (t : Fin cfg0.N) (s k : Fin 256) :
    iblk m c 0 t (ix2 s k) = V m c main_call0_v103 (ix2 s k) := by
  obtain ⟨e0, e1, -⟩ := idx_facts t
  show V m c main_call0_v103 (((cfg0.win 0).blk t).view.emb (ix2 s k)) = _
  refine congrArg _ (funext fun a => Fin.ext ?_)
  match a with
  | ⟨0, _⟩ => show win0_0.index t (0 : Fin 2) * 256 + 1 * s.val = s.val; omega
  | ⟨1, _⟩ => show win0_0.index t (1 : Fin 2) * 256 + 1 * k.val = k.val; omega

theorem blk_pb (c : Dev nD) (t : Fin cfg0.N) (s k : Fin 256) :
    iblk m c 1 t (ix2 s k) = V m c main_call0_v104 (ix2 s k) := by
  obtain ⟨-, -, e0, e1, -⟩ := idx_facts t
  show V m c main_call0_v104 (((cfg0.win 1).blk t).view.emb (ix2 s k)) = _
  refine congrArg _ (funext fun a => Fin.ext ?_)
  match a with
  | ⟨0, _⟩ => show win0_1.index t (0 : Fin 2) * 256 + 1 * s.val = s.val; omega
  | ⟨1, _⟩ => show win0_1.index t (1 : Fin 2) * 256 + 1 * k.val = k.val; omega

theorem blk_x (c : Dev nD) (t : Fin cfg0.N) (k : Fin 256) (q : Fin 4096) :
    iblk m c 2 t (ix2 k q) = V m c main_arg0 (ix2 k (⟨t.val * 4096 + q.val, band_lt t q⟩ : Fin 32768)) := by
  obtain ⟨-, -, -, -, e0, e1, -⟩ := idx_facts t
  show V m c main_arg0 (((cfg0.win 2).blk t).view.emb (ix2 k q)) = _
  refine congrArg _ (funext fun a => Fin.ext ?_)
  match a with
  | ⟨0, _⟩ => show win0_2.index t (0 : Fin 2) * 256 + 1 * k.val = k.val; omega
  | ⟨1, _⟩ => show win0_2.index t (1 : Fin 2) * 4096 + 1 * q.val = t.val * 4096 + q.val; omega

theorem blk_cc (c : Dev nD) (t : Fin cfg0.N) (s : Fin 256) :
    iblk m c 3 t (ix2 s 0) = V m c main_call0_v99 (ix2 s 0) := by
  obtain ⟨-, -, -, -, -, -, e0, e1, -⟩ := idx_facts t
  show V m c main_call0_v99 (((cfg0.win 3).blk t).view.emb (ix2 s 0)) = _
  refine congrArg _ (funext fun a => Fin.ext ?_)
  match a with
  | ⟨0, _⟩ => show win0_3.index t (0 : Fin 2) * 256 + 1 * s.val = s.val; omega
  | ⟨1, _⟩ => show win0_3.index t (1 : Fin 2) * 1 + 1 * 0 = 0; omega

theorem blk_ca (c : Dev nD) (t : Fin cfg0.N) (s : Fin 256) :
    iblk m c 4 t (ix2 s 0) = V m c main_call0_v100 (ix2 s 0) := by
  obtain ⟨-, -, -, -, -, -, -, -, e0, e1, -⟩ := idx_facts t
  show V m c main_call0_v100 (((cfg0.win 4).blk t).view.emb (ix2 s 0)) = _
  refine congrArg _ (funext fun a => Fin.ext ?_)
  match a with
  | ⟨0, _⟩ => show win0_4.index t (0 : Fin 2) * 256 + 1 * s.val = s.val; omega
  | ⟨1, _⟩ => show win0_4.index t (1 : Fin 2) * 1 + 1 * 0 = 0; omega

theorem blk_cb (c : Dev nD) (t : Fin cfg0.N) (s : Fin 256) :
    iblk m c 5 t (ix2 s 0) = V m c main_call0_v101 (ix2 s 0) := by
  obtain ⟨-, -, -, -, -, -, -, -, -, -, e0, e1, -⟩ := idx_facts t
  show V m c main_call0_v101 (((cfg0.win 5).blk t).view.emb (ix2 s 0)) = _
  refine congrArg _ (funext fun a => Fin.ext ?_)
  match a with
  | ⟨0, _⟩ => show win0_5.index t (0 : Fin 2) * 256 + 1 * s.val = s.val; omega
  | ⟨1, _⟩ => show win0_5.index t (1 : Fin 2) * 1 + 1 * 0 = 0; omega

theorem blk_cab (c : Dev nD) (t : Fin cfg0.N) (s : Fin 256) :
    iblk m c 6 t (ix2 s 0) = V m c main_call0_v102 (ix2 s 0) := by
  obtain ⟨-, -, -, -, -, -, -, -, -, -, -, -, e0, e1, -⟩ := idx_facts t
  show V m c main_call0_v102 (((cfg0.win 6).blk t).view.emb (ix2 s 0)) = _
  refine congrArg _ (funext fun a => Fin.ext ?_)
  match a with
  | ⟨0, _⟩ => show win0_6.index t (0 : Fin 2) * 256 + 1 * s.val = s.val; omega
  | ⟨1, _⟩ => show win0_6.index t (1 : Fin 2) * 1 + 1 * 0 = 0; omega

/-! ## What point t writes back, and the cover -/

/-- WHAT POINT t WRITES BACK is band t of the whole-array function. -/
theorem flushed_eq (c : Dev nD) (t : Fin cfg0.N) :
    (dats m 0 c).flushed 7 t = ((cfg0.win 7).blk t).view.read (Elt Ideal)
      (mix (V m c main_call0_v103) (V m c main_call0_v104) (V m c main_arg0) (V m c main_call0_v99) (V m c main_call0_v100) (V m c main_call0_v101) (V m c main_call0_v102)) := by
  rw [flushed7]
  unfold out0_7
  rw [View.canon_unit_zero hz]
  simp only [View.ld_unit_zero (S := S256x256) hz, View.ld_unit_zero (S := S256x4096) hz, View.ld_unit_zero (S := S256x1) hz]
  funext j
  obtain ⟨-, -, -, -, -, -, -, -, -, -, -, -, -, -, e0, e1⟩ := idx_facts t
  have hj0 : (j 0).val < 256 := (j 0).isLt
  have hj1 : (j 1).val < 4096 := (j 1).isLt
  have he : ((cfg0.win 7).blk t).view.emb j
      = ix2 (⟨(j 0).val, hj0⟩ : Fin 256) (⟨t.val * 4096 + (j 1).val, band_lt t ⟨(j 1).val, hj1⟩⟩ : Fin 32768) :=
    funext fun a => Fin.ext (by
      match a with
      | ⟨0, _⟩ => show win0_7.index t (0 : Fin 2) * 256 + 1 * (j 0).val = (j 0).val; omega
      | ⟨1, _⟩ => show win0_7.index t (1 : Fin 2) * 4096 + 1 * (j 1).val = t.val * 4096 + (j 1).val; omega)
  show k0_pay1 (F := Ideal) (iblk m c 0 t) (iblk m c 1 t) (iblk m c 2 t) (iblk m c 3 t) (iblk m c 4 t) (iblk m c 5 t) (iblk m c 6 t) j
    = mix (V m c main_call0_v103) (V m c main_call0_v104) (V m c main_arg0) (V m c main_call0_v99) (V m c main_call0_v100) (V m c main_call0_v101) (V m c main_call0_v102) (((cfg0.win 7).blk t).view.emb j)
  rw [he, Body.pay_read _ _ _ _ _ _ _ j ⟨(j 0).val, hj0⟩ ⟨(j 1).val, hj1⟩ rfl rfl]
  simp only [blk_pa, blk_pb, blk_x, blk_cc, blk_ca, blk_cb, blk_cab]
  rfl

/-- An index of the array is in point t's block iff each coordinate is in the block's range on its axis. -/
theorem mem_blk (t : Fin cfg0.N) (i : S256x32768.Idx) :
    i ∈ ((cfg0.win 7).blk t).view.set ↔ ∀ a : Fin 2, win0_7.index t a * S256x4096.size a ≤ (i a).val ∧ (i a).val < win0_7.index t a * S256x4096.size a + S256x4096.size a := by
  show i ∈ ((View.whole main_v0).slice (win0_7.rect t)).set ↔ _
  rw [View.set_slice_whole, Rect.mem_set_unit]
  exact Iff.rfl

/-- Every element of the output lies in the band of the point its column names. -/
theorem cover (i : S256x32768.Idx) :
    ∃ t : Fin cfg0.N, (cfg0.win 7).flush t = true ∧ i ∈ ((cfg0.win 7).blk t).view.set := by
  have hi0 : (i 0).val < 256 := (i 0).isLt
  have hi1 : (i 1).val < 32768 := (i 1).isLt
  have hlt : (i 1).val / 4096 < 8 := by omega
  obtain ⟨-, -, -, -, -, -, -, -, -, -, -, -, -, -, e0, e1⟩ := idx_facts ⟨(i 1).val / 4096, hlt⟩
  have e1' : win0_7.index ⟨(i 1).val / 4096, hlt⟩ (1 : Fin 2) = (i 1).val / 4096 := e1
  refine ⟨⟨(i 1).val / 4096, hlt⟩, flush0_7 _, ?_⟩
  rw [mem_blk]
  intro a
  match a with
  | ⟨0, _⟩ =>
    show win0_7.index ⟨(i 1).val / 4096, hlt⟩ (0 : Fin 2) * 256 ≤ (i 0).val ∧ (i 0).val < win0_7.index ⟨(i 1).val / 4096, hlt⟩ (0 : Fin 2) * 256 + 256
    omega
  | ⟨1, _⟩ =>
    show win0_7.index ⟨(i 1).val / 4096, hlt⟩ (1 : Fin 2) * 4096 ≤ (i 1).val ∧ (i 1).val < win0_7.index ⟨(i 1).val / 4096, hlt⟩ (1 : Fin 2) * 4096 + 4096
    omega

/-- THE ARRAY after the run is the whole-array function. -/
theorem final (c : Dev nD) :
    (dats m 0 c).arrAt 7 cfg0.N = mix (V m c main_call0_v103) (V m c main_call0_v104) (V m c main_arg0) (V m c main_call0_v99) (V m c main_call0_v100) (V m c main_call0_v101) (V m c main_call0_v102) :=
  (dats m 0 c).arrAt_eq_of_cover 7 _ (fun t _ => flushed_eq m c t) cover

/-- The run, with the output array named. -/
theorem run : θ_run defs (onTc (τ := τ) (main (F := Ideal))) ⟨m, fun _ => 0, ρ⟩ fun r => ∀ c : Dev nD,
      r.2.mem ((c : Thread nD τ).loc main_v0) = mix (V m c main_call0_v103) (V m c main_call0_v104) (V m c main_arg0) (V m c main_call0_v99) (V m c main_call0_v100) (V m c main_call0_v101) (V m c main_call0_v102)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.WholeArray

end
-- ==== Proof.KernelHost.lean ====
/-
  The arrays the region reads, as the host operations before it compute them from the four arguments.

  Before the region the host computes three softmaxes — of the two [256, 256] weight arrays along their rows and of the
  [16, 256] gate weights down its columns: the very operations the reference applies, so each is named here by the
  reference's stage and never opened — narrows the first two to bf16 (the identity on extended reals), cuts the sixteen
  rows p0 … p15 out of the third, and combines them into four coefficient vectors, each recast as a 256×1 column:
      c1  = p8 + p9 + p10 + p11 + p12 + p13 + p14 + p15
      cA  = p2 + p3 + p6 + p7 - p8 - p9 - p12 - p13
      cB  = p4 + p5 + p6 + p7 - p8 - p9 - p10 - p11
      cAB = p1 - p2 - p4 - 2·p6 - p7 + p8 + 2·p9 + p11 + p13 - p14.
  Read at row s these are the same sums of the weights pt(k, s).
-/
import proofs.«145931_j65429531787948_2_alg».proof.Proof.Gen.KernelIdeal.Frame
import proofs.«145931_j65429531787948_2_alg».proof.Proof.RefReadPatched
import Idealize.ShloMosaic.Lib.StableHlo.Run
import Idealize.ShloMosaic.Lib.ValueIdx
import Idealize.ShloMosaic.Lib.Pipeline.Value

set_option maxRecDepth 65536

noncomputable section

namespace Cert.KernelIdeal.HostPrefix

open Cert.KernelIdeal Cert.KernelIdeal.Gen
open Idealize.ShloMosaic Idealize.ShloMosaic.TcCoe Idealize.SL.Sem Idealize.ShloMosaic.StableHlo Idealize.ShloMosaic.ValueIdx

/-! ## The coefficient columns as functions of the gate weights -/

/-- Row k of the [16, 256] weights as the host cuts it: a [1, 256] slice viewed as a 256-vector. -/
def row (k : ℕ) (h : S16x256.Slices ![k, 0] S1x256) (pt : FVec Ideal S16x256 .f32) : FVec Ideal S256 .f32 :=
  shapeCast S256 (extractStridedSlice S1x256 ![k, 0] pt h) shapeCasts_S1x256_S256

/-- It reads the weight (k, s) at s. -/
theorem row_at (k : ℕ) (h : S16x256.Slices ![k, 0] S1x256) (pt : FVec Ideal S16x256 .f32) (kk : Fin 16) (hk : kk.val = k)
    (s : Fin 256) : row k h pt (ix1 s) = pt (ix2 kk s) := by
  unfold row
  refine (shapeCast_dropUnit_apply ![256] _ shapeCasts_S1x256_S256 (ix1 s)).trans ?_
  exact extractStridedSlice_apply _ pt h _ (ix2 kk s) (fun a => match a with
    | ⟨0, _⟩ => by show kk.val = k + 0; omega
    | ⟨1, _⟩ => by show s.val = 0 + s.val; omega)

theorem row_0_at (pt : FVec Ideal S16x256 .f32) (s : Fin 256) : row 0 slices_S16x256_S1x256_0_0 pt (ix1 s) = pt (ix2 0 s) := row_at 0 _ pt 0 rfl s
theorem row_1_at (pt : FVec Ideal S16x256 .f32) (s : Fin 256) : row 1 slices_S16x256_S1x256_1_0 pt (ix1 s) = pt (ix2 1 s) := row_at 1 _ pt 1 rfl s
theorem row_2_at (pt : FVec Ideal S16x256 .f32) (s : Fin 256) : row 2 slices_S16x256_S1x256_2_0 pt (ix1 s) = pt (ix2 2 s) := row_at 2 _ pt 2 rfl s
theorem row_3_at (pt : FVec Ideal S16x256 .f32) (s : Fin 256) : row 3 slices_S16x256_S1x256_3_0 pt (ix1 s) = pt (ix2 3 s) := row_at 3 _ pt 3 rfl s
theorem row_4_at (pt : FVec Ideal S16x256 .f32) (s : Fin 256) : row 4 slices_S16x256_S1x256_4_0 pt (ix1 s) = pt (ix2 4 s) := row_at 4 _ pt 4 rfl s
theorem row_5_at (pt : FVec Ideal S16x256 .f32) (s : Fin 256) : row 5 slices_S16x256_S1x256_5_0 pt (ix1 s) = pt (ix2 5 s) := row_at 5 _ pt 5 rfl s
theorem row_6_at (pt : FVec Ideal S16x256 .f32) (s : Fin 256) : row 6 slices_S16x256_S1x256_6_0 pt (ix1 s) = pt (ix2 6 s) := row_at 6 _ pt 6 rfl s
theorem row_7_at (pt : FVec Ideal S16x256 .f32) (s : Fin 256) : row 7 slices_S16x256_S1x256_7_0 pt (ix1 s) = pt (ix2 7 s) := row_at 7 _ pt 7 rfl s
theorem row_8_at (pt : FVec Ideal S16x256 .f32) (s : Fin 256) : row 8 slices_S16x256_S1x256_8_0 pt (ix1 s) = pt (ix2 8 s) := row_at 8 _ pt 8 rfl s
theorem row_9_at (pt : FVec Ideal S16x256 .f32) (s : Fin 256) : row 9 slices_S16x256_S1x256_9_0 pt (ix1 s) = pt (ix2 9 s) := row_at 9 _ pt 9 rfl s
theorem row_10_at (pt : FVec Ideal S16x256 .f32) (s : Fin 256) : row 10 slices_S16x256_S1x256_10_0 pt (ix1 s) = pt (ix2 10 s) := row_at 10 _ pt 10 rfl s
theorem row_11_at (pt : FVec Ideal S16x256 .f32) (s : Fin 256) : row 11 slices_S16x256_S1x256_11_0 pt (ix1 s) = pt (ix2 11 s) := row_at 11 _ pt 11 rfl s
theorem row_12_at (pt : FVec Ideal S16x256 .f32) (s : Fin 256) : row 12 slices_S16x256_S1x256_12_0 pt (ix1 s) = pt (ix2 12 s) := row_at 12 _ pt 12 rfl s
theorem row_13_at (pt : FVec Ideal S16x256 .f32) (s : Fin 256) : row 13 slices_S16x256_S1x256_13_0 pt (ix1 s) = pt (ix2 13 s) := row_at 13 _ pt 13 rfl s
theorem row_14_at (pt : FVec Ideal S16x256 .f32) (s : Fin 256) : row 14 slices_S16x256_S1x256_14_0 pt (ix1 s) = pt (ix2 14 s) := row_at 14 _ pt 14 rfl s
theorem row_15_at (pt : FVec Ideal S16x256 .f32) (s : Fin 256) : row 15 slices_S16x256_S1x256_15_0 pt (ix1 s) = pt (ix2 15 s) := row_at 15 _ pt 15 rfl s

/-- A 256-vector recast as a 256×1 column reads its entry s at (s, 0). -/
theorem column_cast_at (y : FVec Ideal S256 .f32) (s : Fin 256) :
    shapeCast S256x1 y shapeCasts_S256_S256x1 (ix2 s 0) = y (ix1 s) :=
  shapeCast_apply y shapeCasts_S256_S256x1 (ix2 s 0) (ix1 s) (by
    rw [Shape.rowMajor_val_one, Shape.rowMajor_val_two]; show s.val = s.val * 1 + 0; omega)

/-- The splat of the word 2.0 reads that word everywhere. -/
theorem two_at (s : Fin 256) : (broadcastInDim S256 ![] bcast_S_S256 (constant (F := Ideal) S_ .f32 0x40000000#32)) (ix1 s) = Ideal.ofBits .f32 0x40000000#32 := rfl

def colConst (pt : FVec Ideal S16x256 .f32) : FVec Ideal S256x1 .f32 :=
  shapeCast S256x1 (addf (addf (addf (addf (addf (addf (addf (row 8 slices_S16x256_S1x256_8_0 pt) (row 9 slices_S16x256_S1x256_9_0 pt)) (row 10 slices_S16x256_S1x256_10_0 pt)) (row 11 slices_S16x256_S1x256_11_0 pt)) (row 12 slices_S16x256_S1x256_12_0 pt)) (row 13 slices_S16x256_S1x256_13_0 pt)) (row 14 slices_S16x256_S1x256_14_0 pt)) (row 15 slices_S16x256_S1x256_15_0 pt)) shapeCasts_S256_S256x1

def colA (pt : FVec Ideal S16x256 .f32) : FVec Ideal S256x1 .f32 :=
  shapeCast S256x1 (subf (subf (subf (subf (addf (addf (addf (row 2 slices_S16x256_S1x256_2_0 pt) (row 3 slices_S16x256_S1x256_3_0 pt)) (row 6 slices_S16x256_S1x256_6_0 pt)) (row 7 slices_S16x256_S1x256_7_0 pt)) (row 8 slices_S16x256_S1x256_8_0 pt)) (row 9 slices_S16x256_S1x256_9_0 pt)) (row 12 slices_S16x256_S1x256_12_0 pt)) (row 13 slices_S16x256_S1x256_13_0 pt)) shapeCasts_S256_S256x1

def colB (pt : FVec Ideal S16x256 .f32) : FVec Ideal S256x1 .f32 :=
  shapeCast S256x1 (subf (subf (subf (subf (addf (addf (addf (row 4 slices_S16x256_S1x256_4_0 pt) (row 5 slices_S16x256_S1x256_5_0 pt)) (row 6 slices_S16x256_S1x256_6_0 pt)) (row 7 slices_S16x256_S1x256_7_0 pt)) (row 8 slices_S16x256_S1x256_8_0 pt)) (row 9 slices_S16x256_S1x256_9_0 pt)) (row 10 slices_S16x256_S1x256_10_0 pt)) (row 11 slices_S16x256_S1x256_11_0 pt)) shapeCasts_S256_S256x1

def colAB (pt : FVec Ideal S16x256 .f32) : FVec Ideal S256x1 .f32 :=
  shapeCast S256x1 (subf (addf (addf (addf (addf (subf (subf (subf (subf (row 1 slices_S16x256_S1x256_1_0 pt) (row 2 slices_S16x256_S1x256_2_0 pt)) (row 4 slices_S16x256_S1x256_4_0 pt)) (mulf (broadcastInDim S256 ![] bcast_S_S256 (constant (F := Ideal) S_ .f32 0x40000000#32)) (row 6 slices_S16x256_S1x256_6_0 pt))) (row 7 slices_S16x256_S1x256_7_0 pt)) (row 8 slices_S16x256_S1x256_8_0 pt)) (mulf (broadcastInDim S256 ![] bcast_S_S256 (constant (F := Ideal) S_ .f32 0x40000000#32)) (row 9 slices_S16x256_S1x256_9_0 pt))) (row 11 slices_S16x256_S1x256_11_0 pt)) (row 13 slices_S16x256_S1x256_13_0 pt)) (row 14 slices_S16x256_S1x256_14_0 pt)) shapeCasts_S256_S256x1

theorem colConst_at (pt : FVec Ideal S16x256 .f32) (s : Fin 256) :
    colConst pt (ix2 s 0) = pt (ix2 8 s) + pt (ix2 9 s) + pt (ix2 10 s) + pt (ix2 11 s) + pt (ix2 12 s) + pt (ix2 13 s) + pt (ix2 14 s) + pt (ix2 15 s) := by
  unfold colConst
  rw [column_cast_at]
  simp only [addf_apply, row_0_at, row_1_at, row_2_at, row_3_at, row_4_at, row_5_at, row_6_at, row_7_at, row_8_at, row_9_at, row_10_at, row_11_at, row_12_at, row_13_at, row_14_at, row_15_at]

theorem colA_at (pt : FVec Ideal S16x256 .f32) (s : Fin 256) :
    colA pt (ix2 s 0) = pt (ix2 2 s) + pt (ix2 3 s) + pt (ix2 6 s) + pt (ix2 7 s) - pt (ix2 8 s) - pt (ix2 9 s) - pt (ix2 12 s) - pt (ix2 13 s) := by
  unfold colA
  rw [column_cast_at]
  simp only [addf_apply, subf_apply, row_0_at, row_1_at, row_2_at, row_3_at, row_4_at, row_5_at, row_6_at, row_7_at, row_8_at, row_9_at, row_10_at, row_11_at, row_12_at, row_13_at, row_14_at, row_15_at]

theorem colB_at (pt : FVec Ideal S16x256 .f32) (s : Fin 256) :
    colB pt (ix2 s 0) = pt (ix2 4 s) + pt (ix2 5 s) + pt (ix2 6 s) + pt (ix2 7 s) - pt (ix2 8 s) - pt (ix2 9 s) - pt (ix2 10 s) - pt (ix2 11 s) := by
  unfold colB
  rw [column_cast_at]
  simp only [addf_apply, subf_apply, row_0_at, row_1_at, row_2_at, row_3_at, row_4_at, row_5_at, row_6_at, row_7_at, row_8_at, row_9_at, row_10_at, row_11_at, row_12_at, row_13_at, row_14_at, row_15_at]

theorem colAB_at (pt : FVec Ideal S16x256 .f32) (s : Fin 256) :
    colAB pt (ix2 s 0) = pt (ix2 1 s) - pt (ix2 2 s) - pt (ix2 4 s) - Ideal.ofBits .f32 0x40000000#32 * pt (ix2 6 s) - pt (ix2 7 s) + pt (ix2 8 s) + Ideal.ofBits .f32 0x40000000#32 * pt (ix2 9 s) + pt (ix2 11 s) + pt (ix2 13 s) - pt (ix2 14 s) := by
  unfold colAB
  rw [column_cast_at]
  simp only [addf_apply, subf_apply, mulf_apply, two_at, row_0_at, row_1_at, row_2_at, row_3_at, row_4_at, row_5_at, row_6_at, row_7_at, row_8_at, row_9_at, row_10_at, row_11_at, row_12_at, row_13_at, row_14_at, row_15_at]
  rfl

/-! ## What the region finds

  Each host operation writes its value into its result buffer through that buffer's typed reference and reads its operands
  back through theirs; the two transports along the reference's type equation cancel, so a buffer's contents after the
  operations is the plain composition of the operations' functions. The lemmas below say this once, for any reference
  whose buffer type is the value's type: a value written then read back is itself, and a reshape between two such buffers
  reads its operand the same way. -/

/-- A value carried into a typed reference's buffer and read back is the value. -/
theorem ofBuf_toBuf_of {Val : EltTy → Type} {T : BufTy} (r : Ref sig .tc) (h1 : r.ty = T) (h2 : r.space ≠ .host)
    (h3 : r.isScoped = false) (v : T.Contents Val) :
    (TRef.of r h1 h2 h3 : TRef sig T).ofBuf ((TRef.of r h1 h2 h3 : TRef sig T).toBuf v) = v := by
  subst h1; rfl

/-- A reshape between two typed references: the result buffer holds the operand, read through its reference, recast. -/
theorem reshape_result_of {Val : EltTy → Type} {Tx Ty : BufTy} (rx ry : Ref sig .tc)
    (hx1 : rx.ty = Tx) (hx2 : rx.space ≠ .host) (hx3 : rx.isScoped = false)
    (hy1 : ry.ty = Ty) (hy2 : ry.space ≠ .host) (hy3 : ry.isScoped = false)
    (he : Tx.elt = Ty.elt) (hn : Tx.shape.ShapeCasts Ty.shape) (W : Valuation τ sig Val) :
    (TRef.reshape (τ := τ) (Val := Val) (TRef.of rx hx1 hx2 hx3 : TRef sig Tx) (TRef.of ry hy1 hy2 hy3 : TRef sig Ty) he hn).result W
        (no_index (Proc.devRef .tc ry))
      = (TRef.of ry hy1 hy2 hy3 : TRef sig Ty).toBuf
          (fun i => he ▸ shapeCast Ty.shape ((TRef.of rx hx1 hx2 hx3 : TRef sig Tx).ofBuf (W (Proc.devRef .tc rx))) hn i) := by
  subst hx1; subst hy1
  exact reshape_result' _ _ _ _ W

/-- The contents of one buffer after a line of host operations, as the composition of their functions: one pass over the
    line, each operation's result at its own buffer, any other buffer left as it was, write-then-read pairs cancelled. -/
macro "host_results" : tactic =>
  `(tactic| (simp (disch := decide) only [after_cons, after_nil, ofBuf_toBuf_of, reshape_result_of,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

variable (m : (ℓ : Loc nD τ sig) → Buf (Elt Ideal) ℓ) (c : Dev nD)

/-! The two ends of each composition: the argument arrays as launched, and the six arrays the region stages. For a literal
    reference the transport is along an equation between two spellings of one type, so it is the identity. -/

theorem read_arg1 (h1 : (main_arg1 : Ref sig .tc).ty = ⟨S256x256, .f32⟩) (h2 : (main_arg1 : Ref sig .tc).space ≠ .host)
    (h3 : (main_arg1 : Ref sig .tc).isScoped = false) (w : (main_arg1 : Ref sig .tc).ty.Contents (Elt Ideal)) :
    (TRef.of main_arg1 h1 h2 h3 : TRef sig ⟨S256x256, .f32⟩).ofBuf w = w := rfl
theorem read_arg2 (h1 : (main_arg2 : Ref sig .tc).ty = ⟨S256x256, .f32⟩) (h2 : (main_arg2 : Ref sig .tc).space ≠ .host)
    (h3 : (main_arg2 : Ref sig .tc).isScoped = false) (w : (main_arg2 : Ref sig .tc).ty.Contents (Elt Ideal)) :
    (TRef.of main_arg2 h1 h2 h3 : TRef sig ⟨S256x256, .f32⟩).ofBuf w = w := rfl
theorem read_arg3 (h1 : (main_arg3 : Ref sig .tc).ty = ⟨S16x256, .f32⟩) (h2 : (main_arg3 : Ref sig .tc).space ≠ .host)
    (h3 : (main_arg3 : Ref sig .tc).isScoped = false) (w : (main_arg3 : Ref sig .tc).ty.Contents (Elt Ideal)) :
    (TRef.of main_arg3 h1 h2 h3 : TRef sig ⟨S16x256, .f32⟩).ofBuf w = w := rfl

theorem written_v103 (h1 : (main_call0_v103 : Ref sig .tc).ty = ⟨S256x256, .bf16⟩) (h2 : (main_call0_v103 : Ref sig .tc).space ≠ .host)
    (h3 : (main_call0_v103 : Ref sig .tc).isScoped = false) (v : (⟨S256x256, .bf16⟩ : BufTy).Contents (Elt Ideal)) :
    ((TRef.of main_call0_v103 h1 h2 h3 : TRef sig ⟨S256x256, .bf16⟩).toBuf v : S256x256.Idx → EReal) = v := rfl
theorem written_v104 (h1 : (main_call0_v104 : Ref sig .tc).ty = ⟨S256x256, .bf16⟩) (h2 : (main_call0_v104 : Ref sig .tc).space ≠ .host)
    (h3 : (main_call0_v104 : Ref sig .tc).isScoped = false) (v : (⟨S256x256, .bf16⟩ : BufTy).Contents (Elt Ideal)) :
    ((TRef.of main_call0_v104 h1 h2 h3 : TRef sig ⟨S256x256, .bf16⟩).toBuf v : S256x256.Idx → EReal) = v := rfl
theorem written_v99 (h1 : (main_call0_v99 : Ref sig .tc).ty = ⟨S256x1, .f32⟩) (h2 : (main_call0_v99 : Ref sig .tc).space ≠ .host)
    (h3 : (main_call0_v99 : Ref sig .tc).isScoped = false) (v : (⟨S256x1, .f32⟩ : BufTy).Contents (Elt Ideal)) :
    ((TRef.of main_call0_v99 h1 h2 h3 : TRef sig ⟨S256x1, .f32⟩).toBuf v : S256x1.Idx → EReal) = v := rfl
theorem written_v100 (h1 : (main_call0_v100 : Ref sig .tc).ty = ⟨S256x1, .f32⟩) (h2 : (main_call0_v100 : Ref sig .tc).space ≠ .host)
    (h3 : (main_call0_v100 : Ref sig .tc).isScoped = false) (v : (⟨S256x1, .f32⟩ : BufTy).Contents (Elt Ideal)) :
    ((TRef.of main_call0_v100 h1 h2 h3 : TRef sig ⟨S256x1, .f32⟩).toBuf v : S256x1.Idx → EReal) = v := rfl
theorem written_v101 (h1 : (main_call0_v101 : Ref sig .tc).ty = ⟨S256x1, .f32⟩) (h2 : (main_call0_v101 : Ref sig .tc).space ≠ .host)
    (h3 : (main_call0_v101 : Ref sig .tc).isScoped = false) (v : (⟨S256x1, .f32⟩ : BufTy).Contents (Elt Ideal)) :
    ((TRef.of main_call0_v101 h1 h2 h3 : TRef sig ⟨S256x1, .f32⟩).toBuf v : S256x1.Idx → EReal) = v := rfl
theorem written_v102 (h1 : (main_call0_v102 : Ref sig .tc).ty = ⟨S256x1, .f32⟩) (h2 : (main_call0_v102 : Ref sig .tc).space ≠ .host)
    (h3 : (main_call0_v102 : Ref sig .tc).isScoped = false) (v : (⟨S256x1, .f32⟩ : BufTy).Contents (Elt Ideal)) :
    ((TRef.of main_call0_v102 h1 h2 h3 : TRef sig ⟨S256x1, .f32⟩).toBuf v : S256x1.Idx → EReal) = v := rfl

/-- Narrowing to bf16 changes no extended real. -/
theorem narrow_id (a : FVec Ideal S256x256 .f32) (h : FTy.bf16.bits < FTy.f32.bits) :
    (truncf FTy.bf16 a h : S256x256.Idx → EReal) = a := rfl

/-- Window 0's array: the row softmax of the first weight array — the host applies the reference's own eleven operations. -/
theorem V_pa : (V m c main_call0_v103 : S256x256.Idx → EReal) = Cert.ReferenceIdeal.ReadP.val_main_v10 (F := Ideal) (m ((c : Thread nD τ).loc main_arg1)) := by
  dsimp only [V, hostOps0]; host_results
  rw [written_v103, narrow_id]
  simp only [read_arg1, Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_v7, Cert.ReferenceIdeal.ReadP.val_main_v8, Cert.ReferenceIdeal.ReadP.val_main_v9, Cert.ReferenceIdeal.ReadP.val_main_v10, Cert.ReferenceIdeal.ReadP.val_main_cst, Cert.ReferenceIdeal.ReadP.val_main_cst_0, Cert.ReferenceIdeal.ReadP.val_main_cst_1]

/-- Window 1's array: the row softmax of the second weight array. -/
theorem V_pb : (V m c main_call0_v104 : S256x256.Idx → EReal) = Cert.ReferenceIdeal.ReadP.val_main_v21 (F := Ideal) (m ((c : Thread nD τ).loc main_arg2)) := by
  dsimp only [V, hostOps0]; host_results
  rw [written_v104, narrow_id]
  simp only [read_arg2, Cert.ReferenceIdeal.ReadP.val_main_v11, Cert.ReferenceIdeal.ReadP.val_main_v12, Cert.ReferenceIdeal.ReadP.val_main_v13, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_cst_2, Cert.ReferenceIdeal.ReadP.val_main_cst_3, Cert.ReferenceIdeal.ReadP.val_main_cst_4]

set_option maxHeartbeats 4000000 in
/-- Windows 3 to 6: the four coefficient columns of the column softmax of the gate weights. -/
theorem V_cc : (V m c main_call0_v99 : S256x1.Idx → EReal) = colConst (Cert.ReferenceIdeal.ReadP.val_main_v32 (F := Ideal) (m ((c : Thread nD τ).loc main_arg3))) := by
  dsimp only [V, hostOps0]; host_results
  rw [written_v99]
  unfold colConst row
  simp only [read_arg3, Cert.ReferenceIdeal.ReadP.val_main_v22, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_v30, Cert.ReferenceIdeal.ReadP.val_main_v31, Cert.ReferenceIdeal.ReadP.val_main_v32, Cert.ReferenceIdeal.ReadP.val_main_cst_5, Cert.ReferenceIdeal.ReadP.val_main_cst_6, Cert.ReferenceIdeal.ReadP.val_main_cst_7]

set_option maxHeartbeats 4000000 in
theorem V_ca : (V m c main_call0_v100 : S256x1.Idx → EReal) = colA (Cert.ReferenceIdeal.ReadP.val_main_v32 (F := Ideal) (m ((c : Thread nD τ).loc main_arg3))) := by
  dsimp only [V, hostOps0]; host_results
  rw [written_v100]
  unfold colA row
  simp only [read_arg3, Cert.ReferenceIdeal.ReadP.val_main_v22, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_v30, Cert.ReferenceIdeal.ReadP.val_main_v31, Cert.ReferenceIdeal.ReadP.val_main_v32, Cert.ReferenceIdeal.ReadP.val_main_cst_5, Cert.ReferenceIdeal.ReadP.val_main_cst_6, Cert.ReferenceIdeal.ReadP.val_main_cst_7]

set_option maxHeartbeats 4000000 in
theorem V_cb : (V m c main_call0_v101 : S256x1.Idx → EReal) = colB (Cert.ReferenceIdeal.ReadP.val_main_v32 (F := Ideal) (m ((c : Thread nD τ).loc main_arg3))) := by
  dsimp only [V, hostOps0]; host_results
  rw [written_v101]
  unfold colB row
  simp only [read_arg3, Cert.ReferenceIdeal.ReadP.val_main_v22, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_v30, Cert.ReferenceIdeal.ReadP.val_main_v31, Cert.ReferenceIdeal.ReadP.val_main_v32, Cert.ReferenceIdeal.ReadP.val_main_cst_5, Cert.ReferenceIdeal.ReadP.val_main_cst_6, Cert.ReferenceIdeal.ReadP.val_main_cst_7]

set_option maxHeartbeats 4000000 in
theorem V_cab : (V m c main_call0_v102 : S256x1.Idx → EReal) = colAB (Cert.ReferenceIdeal.ReadP.val_main_v32 (F := Ideal) (m ((c : Thread nD τ).loc main_arg3))) := by
  dsimp only [V, hostOps0]; host_results
  rw [written_v102]
  unfold colAB row
  simp only [read_arg3, Cert.ReferenceIdeal.ReadP.val_main_v22, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_v30, Cert.ReferenceIdeal.ReadP.val_main_v31, Cert.ReferenceIdeal.ReadP.val_main_v32, Cert.ReferenceIdeal.ReadP.val_main_cst_5, Cert.ReferenceIdeal.ReadP.val_main_cst_6, Cert.ReferenceIdeal.ReadP.val_main_cst_7]

end Cert.KernelIdeal.HostPrefix

end
-- ==== Proof.RefValue.lean ====
/-
  The reference's result at one element (s, b).

  The reference forms A = pa · x and B = pb · x, builds the table of the sixteen soft two-input gates of (A, B) as sixteen
  [1, 256, 32768] slabs joined along a new leading axis, multiplies slab k by the weight pt(k, s) (the [16, 256] weights
  broadcast along the batch axis) and sums over k from 0. So at (s, b) the result is
      0 + ∑ k, gate_k(A(s, b), B(s, b)) · pt(k, s),
  the sum written out over its sixteen terms; and A(s, b), B(s, b) are the inner products of row s of pa, pb with
  column b of x. Here pa, pb, pt are the reference's own three softmax stages, left unopened.
-/
import proofs.«145931_j65429531787948_2_alg».proof.Proof.RefReadPatched
import proofs.«145931_j65429531787948_2_alg».proof.Proof.ERealFacts
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.ReadP Cert.GateMix Idealize.ShloMosaic Idealize.ShloMosaic.ValueIdx

variable (x0 : (⟨S256x32768, .f32⟩ : BufTy).Contents (Elt Ideal)) (x1 x2 : (⟨S256x256, .f32⟩ : BufTy).Contents (Elt Ideal)) (x3 : (⟨S16x256, .f32⟩ : BufTy).Contents (Elt Ideal))

/-- A [256, 32768] array viewed as one [1, 256, 32768] slab reads (0, s, b) at (s, b). -/
theorem slab_at (y : (⟨S256x32768, .f32⟩ : BufTy).Contents (Elt Ideal)) (s : Fin 256) (b : Fin 32768) :
    broadcastInDim S1x256x32768 ![1, 2] bcast_S256x32768_S1x256x32768_1_2 y (ix3 0 s b) = y (ix2 s b) :=
  broadcastInDim_apply _ bcast_S256x32768_S1x256x32768_1_2 y (ix3 0 s b) (ix2 s b) (fun a => match a with
    | ⟨0, _⟩ => by show s.val = if (256 : Nat) = 1 then 0 else s.val; rw [if_neg (by decide)]
    | ⟨1, _⟩ => by show b.val = if (32768 : Nat) = 1 then 0 else b.val; rw [if_neg (by decide)])

/-- The sixteen slabs, in the order they are joined. -/
def slabs : Fin 16 → ((⟨S1x256x32768, .f32⟩ : BufTy).Contents (Elt Ideal)) :=
  ![val_main_v62 (F := Ideal),
    val_main_v63 (F := Ideal) x0 x1 x2,
    val_main_v64 (F := Ideal) x0 x1 x2,
    val_main_v65 (F := Ideal) x0 x1,
    val_main_v66 (F := Ideal) x0 x1 x2,
    val_main_v67 (F := Ideal) x0 x2,
    val_main_v68 (F := Ideal) x0 x1 x2,
    val_main_v69 (F := Ideal) x0 x1 x2,
    val_main_v70 (F := Ideal) x0 x1 x2,
    val_main_v71 (F := Ideal) x0 x1 x2,
    val_main_v72 (F := Ideal) x0 x2,
    val_main_v73 (F := Ideal) x0 x1 x2,
    val_main_v74 (F := Ideal) x0 x1,
    val_main_v75 (F := Ideal) x0 x1 x2,
    val_main_v76 (F := Ideal) x0 x1 x2,
    val_main_v77 (F := Ideal)]

/-- The joined table at (k, s, b) is slab k at (0, s, b): the slabs have extent one along the joined axis. -/
theorem table_at (k : Fin 16) (s : Fin 256) (b : Fin 32768) :
    val_main_v78 (F := Ideal) x0 x1 x2 (ix3 k s b) = slabs x0 x1 x2 k (ix3 0 s b) :=
  concatenate_ofFn_unit_apply (t := S16x256x32768) (s₁ := S1x256x32768) 0 (slabs x0 x1 x2)
    concatenates_S1x256x32768_S1x256x32768_S1x256x32768_S1x256x32768_S1x256x32768_S1x256x32768_S1x256x32768_S1x256x32768_S1x256x32768_S1x256x32768_S1x256x32768_S1x256x32768_S1x256x32768_S1x256x32768_S1x256x32768_S1x256x32768_S16x256x32768_d0
    rfl rfl (ix3 k s b) k rfl (ix3 0 s b)
    (fun a ha => match a, ha with
      | ⟨0, _⟩, ha => absurd rfl ha
      | ⟨1, _⟩, _ => rfl
      | ⟨2, _⟩, _ => rfl)

/-- Slab 0 (the gate "false") at (0, s, b). -/
theorem slab_0 (s : Fin 256) (b : Fin 32768) :
    slabs x0 x1 x2 0 (ix3 0 s b) = Ideal.ofBits .f32 0x00000000#32 :=
  (slab_at (val_main_v42 (F := Ideal)) s b).trans rfl
/-- Slab 1 (the gate "and") at (0, s, b). -/
theorem slab_1 (s : Fin 256) (b : Fin 32768) :
    slabs x0 x1 x2 1 (ix3 0 s b) = (val_main_v33 (F := Ideal) x0 x1 (ix2 s b)) * (val_main_v34 (F := Ideal) x0 x2 (ix2 s b)) :=
  (slab_at (val_main_v35 (F := Ideal) x0 x1 x2) s b).trans rfl
/-- Slab 2 (the gate "a and not b") at (0, s, b). -/
theorem slab_2 (s : Fin 256) (b : Fin 32768) :
    slabs x0 x1 x2 2 (ix3 0 s b) = (val_main_v33 (F := Ideal) x0 x1 (ix2 s b)) - (val_main_v33 (F := Ideal) x0 x1 (ix2 s b)) * (val_main_v34 (F := Ideal) x0 x2 (ix2 s b)) :=
  (slab_at (val_main_v44 (F := Ideal) x0 x1 x2) s b).trans rfl
/-- Slab 3 (the gate "a") at (0, s, b). -/
theorem slab_3 (s : Fin 256) (b : Fin 32768) :
    slabs x0 x1 x2 3 (ix3 0 s b) = (val_main_v33 (F := Ideal) x0 x1 (ix2 s b)) :=
  (slab_at (val_main_v33 (F := Ideal) x0 x1) s b).trans rfl
/-- Slab 4 (the gate "b and not a") at (0, s, b). -/
theorem slab_4 (s : Fin 256) (b : Fin 32768) :
    slabs x0 x1 x2 4 (ix3 0 s b) = (val_main_v34 (F := Ideal) x0 x2 (ix2 s b)) - (val_main_v33 (F := Ideal) x0 x1 (ix2 s b)) * (val_main_v34 (F := Ideal) x0 x2 (ix2 s b)) :=
  (slab_at (val_main_v45 (F := Ideal) x0 x1 x2) s b).trans rfl
/-- Slab 5 (the gate "b") at (0, s, b). -/
theorem slab_5 (s : Fin 256) (b : Fin 32768) :
    slabs x0 x1 x2 5 (ix3 0 s b) = (val_main_v34 (F := Ideal) x0 x2 (ix2 s b)) :=
  (slab_at (val_main_v34 (F := Ideal) x0 x2) s b).trans rfl
/-- Slab 6 (the gate "xor") at (0, s, b). -/
theorem slab_6 (s : Fin 256) (b : Fin 32768) :
    slabs x0 x1 x2 6 (ix3 0 s b) = (val_main_v33 (F := Ideal) x0 x1 (ix2 s b)) + (val_main_v34 (F := Ideal) x0 x2 (ix2 s b)) - Ideal.ofBits .f32 0x40000000#32 * ((val_main_v33 (F := Ideal) x0 x1 (ix2 s b)) * (val_main_v34 (F := Ideal) x0 x2 (ix2 s b))) :=
  (slab_at (val_main_v41 (F := Ideal) x0 x1 x2) s b).trans rfl
/-- Slab 7 (the gate "or") at (0, s, b). -/
theorem slab_7 (s : Fin 256) (b : Fin 32768) :
    slabs x0 x1 x2 7 (ix3 0 s b) = (val_main_v33 (F := Ideal) x0 x1 (ix2 s b)) + (val_main_v34 (F := Ideal) x0 x2 (ix2 s b)) - (val_main_v33 (F := Ideal) x0 x1 (ix2 s b)) * (val_main_v34 (F := Ideal) x0 x2 (ix2 s b)) :=
  (slab_at (val_main_v37 (F := Ideal) x0 x1 x2) s b).trans rfl
/-- Slab 8 (the gate "nor") at (0, s, b). -/
theorem slab_8 (s : Fin 256) (b : Fin 32768) :
    slabs x0 x1 x2 8 (ix3 0 s b) = Ideal.ofBits .f32 0x3F800000#32 - ((val_main_v33 (F := Ideal) x0 x1 (ix2 s b)) + (val_main_v34 (F := Ideal) x0 x2 (ix2 s b)) - (val_main_v33 (F := Ideal) x0 x1 (ix2 s b)) * (val_main_v34 (F := Ideal) x0 x2 (ix2 s b))) :=
  (slab_at (val_main_v47 (F := Ideal) x0 x1 x2) s b).trans rfl
/-- Slab 9 (the gate "xnor") at (0, s, b). -/
theorem slab_9 (s : Fin 256) (b : Fin 32768) :
    slabs x0 x1 x2 9 (ix3 0 s b) = Ideal.ofBits .f32 0x3F800000#32 - ((val_main_v33 (F := Ideal) x0 x1 (ix2 s b)) + (val_main_v34 (F := Ideal) x0 x2 (ix2 s b)) - Ideal.ofBits .f32 0x40000000#32 * ((val_main_v33 (F := Ideal) x0 x1 (ix2 s b)) * (val_main_v34 (F := Ideal) x0 x2 (ix2 s b)))) :=
  (slab_at (val_main_v49 (F := Ideal) x0 x1 x2) s b).trans rfl
/-- Slab 10 (the gate "not b") at (0, s, b). -/
theorem slab_10 (s : Fin 256) (b : Fin 32768) :
    slabs x0 x1 x2 10 (ix3 0 s b) = Ideal.ofBits .f32 0x3F800000#32 - (val_main_v34 (F := Ideal) x0 x2 (ix2 s b)) :=
  (slab_at (val_main_v51 (F := Ideal) x0 x2) s b).trans rfl
/-- Slab 11 (the gate "b implies a") at (0, s, b). -/
theorem slab_11 (s : Fin 256) (b : Fin 32768) :
    slabs x0 x1 x2 11 (ix3 0 s b) = Ideal.ofBits .f32 0x3F800000#32 - (val_main_v34 (F := Ideal) x0 x2 (ix2 s b)) + (val_main_v33 (F := Ideal) x0 x1 (ix2 s b)) * (val_main_v34 (F := Ideal) x0 x2 (ix2 s b)) :=
  (slab_at (val_main_v54 (F := Ideal) x0 x1 x2) s b).trans rfl
/-- Slab 12 (the gate "not a") at (0, s, b). -/
theorem slab_12 (s : Fin 256) (b : Fin 32768) :
    slabs x0 x1 x2 12 (ix3 0 s b) = Ideal.ofBits .f32 0x3F800000#32 - (val_main_v33 (F := Ideal) x0 x1 (ix2 s b)) :=
  (slab_at (val_main_v56 (F := Ideal) x0 x1) s b).trans rfl
/-- Slab 13 (the gate "a implies b") at (0, s, b). -/
theorem slab_13 (s : Fin 256) (b : Fin 32768) :
    slabs x0 x1 x2 13 (ix3 0 s b) = Ideal.ofBits .f32 0x3F800000#32 - (val_main_v33 (F := Ideal) x0 x1 (ix2 s b)) + (val_main_v33 (F := Ideal) x0 x1 (ix2 s b)) * (val_main_v34 (F := Ideal) x0 x2 (ix2 s b)) :=
  (slab_at (val_main_v59 (F := Ideal) x0 x1 x2) s b).trans rfl
/-- Slab 14 (the gate "nand") at (0, s, b). -/
theorem slab_14 (s : Fin 256) (b : Fin 32768) :
    slabs x0 x1 x2 14 (ix3 0 s b) = Ideal.ofBits .f32 0x3F800000#32 - (val_main_v33 (F := Ideal) x0 x1 (ix2 s b)) * (val_main_v34 (F := Ideal) x0 x2 (ix2 s b)) :=
  (slab_at (val_main_v61 (F := Ideal) x0 x1 x2) s b).trans rfl
/-- Slab 15 (the gate "true") at (0, s, b). -/
theorem slab_15 (s : Fin 256) (b : Fin 32768) :
    slabs x0 x1 x2 15 (ix3 0 s b) = Ideal.ofBits .f32 0x3F800000#32 :=
  (slab_at (val_main_v43 (F := Ideal)) s b).trans rfl

/-- The weighted table at (k, s, b): slab k at (0, s, b) times the weight pt(k, s). -/
theorem weighted_at (k : Fin 16) (s : Fin 256) (b : Fin 32768) :
    val_main_v81 (F := Ideal) x0 x1 x2 x3 (idx_main_v82 (ix2 s b) k)
      = slabs x0 x1 x2 k (ix3 0 s b) * val_main_v32 (F := Ideal) x3 (ix2 k s) := by
  have hidx : idx_main_v82 (ix2 s b) k = ix3 k s b :=
    funext fun a => by match a with | ⟨0, _⟩ => rfl | ⟨1, _⟩ => rfl | ⟨2, _⟩ => rfl
  have hw : idx_main_v79 (idx_main_v80 (ix3 k s b)) = ix2 k s :=
    funext fun a => by match a with | ⟨0, _⟩ => rfl | ⟨1, _⟩ => rfl
  rw [hidx, val_main_v81_apply, table_at, val_main_v80_apply, val_main_v79_apply, hw]
  rfl

/-- THE REFERENCE AT (s, b): zero plus the sixteen gates of (A, B), each times its weight. -/
theorem result_at (s : Fin 256) (b : Fin 32768) :
    val_main_v82 (F := Ideal) x0 x1 x2 x3 (ix2 s b)
      = Ideal.ofBits .f32 0x00000000#32
        + (Ideal.ofBits .f32 0x00000000#32 * val_main_v32 (F := Ideal) x3 (ix2 0 s)
          + (val_main_v33 (F := Ideal) x0 x1 (ix2 s b)) * (val_main_v34 (F := Ideal) x0 x2 (ix2 s b)) * val_main_v32 (F := Ideal) x3 (ix2 1 s)
          + ((val_main_v33 (F := Ideal) x0 x1 (ix2 s b)) - (val_main_v33 (F := Ideal) x0 x1 (ix2 s b)) * (val_main_v34 (F := Ideal) x0 x2 (ix2 s b))) * val_main_v32 (F := Ideal) x3 (ix2 2 s)
          + (val_main_v33 (F := Ideal) x0 x1 (ix2 s b)) * val_main_v32 (F := Ideal) x3 (ix2 3 s)
          + ((val_main_v34 (F := Ideal) x0 x2 (ix2 s b)) - (val_main_v33 (F := Ideal) x0 x1 (ix2 s b)) * (val_main_v34 (F := Ideal) x0 x2 (ix2 s b))) * val_main_v32 (F := Ideal) x3 (ix2 4 s)
          + (val_main_v34 (F := Ideal) x0 x2 (ix2 s b)) * val_main_v32 (F := Ideal) x3 (ix2 5 s)
          + ((val_main_v33 (F := Ideal) x0 x1 (ix2 s b)) + (val_main_v34 (F := Ideal) x0 x2 (ix2 s b)) - Ideal.ofBits .f32 0x40000000#32 * ((val_main_v33 (F := Ideal) x0 x1 (ix2 s b)) * (val_main_v34 (F := Ideal) x0 x2 (ix2 s b)))) * val_main_v32 (F := Ideal) x3 (ix2 6 s)
          + ((val_main_v33 (F := Ideal) x0 x1 (ix2 s b)) + (val_main_v34 (F := Ideal) x0 x2 (ix2 s b)) - (val_main_v33 (F := Ideal) x0 x1 (ix2 s b)) * (val_main_v34 (F := Ideal) x0 x2 (ix2 s b))) * val_main_v32 (F := Ideal) x3 (ix2 7 s)
          + (Ideal.ofBits .f32 0x3F800000#32 - ((val_main_v33 (F := Ideal) x0 x1 (ix2 s b)) + (val_main_v34 (F := Ideal) x0 x2 (ix2 s b)) - (val_main_v33 (F := Ideal) x0 x1 (ix2 s b)) * (val_main_v34 (F := Ideal) x0 x2 (ix2 s b)))) * val_main_v32 (F := Ideal) x3 (ix2 8 s)
          + (Ideal.ofBits .f32 0x3F800000#32 - ((val_main_v33 (F := Ideal) x0 x1 (ix2 s b)) + (val_main_v34 (F := Ideal) x0 x2 (ix2 s b)) - Ideal.ofBits .f32 0x40000000#32 * ((val_main_v33 (F := Ideal) x0 x1 (ix2 s b)) * (val_main_v34 (F := Ideal) x0 x2 (ix2 s b))))) * val_main_v32 (F := Ideal) x3 (ix2 9 s)
          + (Ideal.ofBits .f32 0x3F800000#32 - (val_main_v34 (F := Ideal) x0 x2 (ix2 s b))) * val_main_v32 (F := Ideal) x3 (ix2 10 s)
          + (Ideal.ofBits .f32 0x3F800000#32 - (val_main_v34 (F := Ideal) x0 x2 (ix2 s b)) + (val_main_v33 (F := Ideal) x0 x1 (ix2 s b)) * (val_main_v34 (F := Ideal) x0 x2 (ix2 s b))) * val_main_v32 (F := Ideal) x3 (ix2 11 s)
          + (Ideal.ofBits .f32 0x3F800000#32 - (val_main_v33 (F := Ideal) x0 x1 (ix2 s b))) * val_main_v32 (F := Ideal) x3 (ix2 12 s)
          + (Ideal.ofBits .f32 0x3F800000#32 - (val_main_v33 (F := Ideal) x0 x1 (ix2 s b)) + (val_main_v33 (F := Ideal) x0 x1 (ix2 s b)) * (val_main_v34 (F := Ideal) x0 x2 (ix2 s b))) * val_main_v32 (F := Ideal) x3 (ix2 13 s)
          + (Ideal.ofBits .f32 0x3F800000#32 - (val_main_v33 (F := Ideal) x0 x1 (ix2 s b)) * (val_main_v34 (F := Ideal) x0 x2 (ix2 s b))) * val_main_v32 (F := Ideal) x3 (ix2 14 s)
          + Ideal.ofBits .f32 0x3F800000#32 * val_main_v32 (F := Ideal) x3 (ix2 15 s)) := by
  rw [val_main_v82_apply, sum_fin16]
  simp only [weighted_at]
  rw [slab_0, slab_1, slab_2, slab_3, slab_4, slab_5, slab_6, slab_7, slab_8, slab_9, slab_10, slab_11, slab_12, slab_13,
    slab_14, slab_15]
  rfl

/-- A(s, b): row s of the first softmax against column b of x. -/
theorem dotA_at (s : Fin 256) (b : Fin 32768) :
    val_main_v33 (F := Ideal) x0 x1 (ix2 s b) = ∑ k : Fin 256, val_main_v10 (F := Ideal) x1 (ix2 s k) * x0 (ix2 k b) := by
  rw [val_main_v33_apply]
  refine Finset.sum_congr rfl fun k _ => ?_
  have e1 : lidx_main_v33 (ix2 s b) k = ix2 s k := funext fun a => by match a with | ⟨0, _⟩ => rfl | ⟨1, _⟩ => rfl
  have e2 : ridx_main_v33 (ix2 s b) k = ix2 k b := funext fun a => by match a with | ⟨0, _⟩ => rfl | ⟨1, _⟩ => rfl
  rw [e1, e2]

/-- B(s, b): row s of the second softmax against column b of x. -/
theorem dotB_at (s : Fin 256) (b : Fin 32768) :
    val_main_v34 (F := Ideal) x0 x2 (ix2 s b) = ∑ k : Fin 256, val_main_v21 (F := Ideal) x2 (ix2 s k) * x0 (ix2 k b) := by
  rw [val_main_v34_apply]
  refine Finset.sum_congr rfl fun k _ => ?_
  have e1 : lidx_main_v34 (ix2 s b) k = ix2 s k := funext fun a => by match a with | ⟨0, _⟩ => rfl | ⟨1, _⟩ => rfl
  have e2 : ridx_main_v34 (ix2 s b) k = ix2 k b := funext fun a => by match a with | ⟨0, _⟩ => rfl | ⟨1, _⟩ => rfl
  rw [e1, e2]

end Cert.ReferenceIdeal.RefValue

end
-- ==== Proof.SoftmaxReal.lean ====
/-
  The reference's three softmax stages hold real numbers when their input does.

  Each stage is the stable softmax along one axis: M = max(-∞, running maximum of the line from -∞), then
  exp(w - M) divided by 0 plus the sum of exp(w - M) along the line. For a real input M is real (the line is not empty),
  so every exponential is a positive real, the divisor a positive real, and the quotient a real number. The first two
  stages (rows of a [256, 256] array) are one function; the third works down the columns of a [16, 256] array.
-/
import proofs.«145931_j65429531787948_2_alg».proof.Proof.RefReadPatched
import proofs.«145931_j65429531787948_2_alg».proof.Proof.ERealFacts
import Idealize.ShloMosaic.PureOps.Reduce
import Idealize.ShloMosaic.PureOps.Ideal.Laws

noncomputable section

namespace Cert.ReferenceIdeal.SoftmaxReal

open Cert.ReferenceIdeal Cert.ReferenceIdeal.Gen Cert.ReferenceIdeal.ReadP Cert.GateMix Idealize.ShloMosaic

/-! ## Along the rows of a [256, 256] array -/

/-- The row maximum (joined with -∞) of a real array is real. -/
theorem rowmax_real (w : (⟨S256x256, .f32⟩ : BufTy).Contents (Elt Ideal)) (hw : ∀ i, ∃ r : ℝ, w i = (r : EReal)) (j : S256.Idx) :
    ∃ μ : ℝ, val_main_v2 (F := Ideal) w j = (μ : EReal) := by
  have h : S256x256.Reduces [1] S256 := by decide
  show ∃ μ : ℝ, max (Ideal.ofBits .f32 0xFF800000#32)
    (Host.reduce FloatOps.maximumf w (val_main_cst (F := Ideal)) reducesTo_S256x256_S256_d1 h_S_ j) = (μ : EReal)
  rw [Host.reduce_eq_fold_single (FloatOps.maximumf (F := Ideal) (φ := .f32)) w _ reducesTo_S256x256_S256_d1 h h_S_]
  show ∃ μ : ℝ, max (Ideal.ofBits .f32 0xFF800000#32)
    ((Finset.univ : Finset (Fin 256)).fold max (Ideal.ofBits .f32 0xFF800000#32) (w ∘ h.lift j)) = (μ : EReal)
  rw [ofBits_neg_inf]
  exact max_fold_real (by decide) _ (fun k => hw _)

/-- The first stage at (s, k) is real. -/
theorem rows_real (w : (⟨S256x256, .f32⟩ : BufTy).Contents (Elt Ideal)) (hw : ∀ i, ∃ r : ℝ, w i = (r : EReal)) (i : S256x256.Idx) :
    ∃ r : ℝ, val_main_v10 (F := Ideal) w i = (r : EReal) := by
  obtain ⟨wr, hwr⟩ := exists_real_fun w hw
  obtain ⟨μ, hμ⟩ := rowmax_real w hw (idx_main_v3 (idx_main_v4 i))
  have e6 : ∀ i', val_main_v6 (F := Ideal) w i' = Ideal.exp (w i' - val_main_v2 (F := Ideal) w (idx_main_v3 (idx_main_v4 i'))) := fun i' => by
    show Ideal.exp (w i' - val_main_v4 (F := Ideal) w i') = _
    rw [val_main_v4_apply, val_main_v3_apply]
  have hrow : ∀ k : Fin 256, idx_main_v3 (idx_main_v4 (idx_main_v7 (idx_main_v8 (idx_main_v9 i)) k)) = idx_main_v3 (idx_main_v4 i) :=
    fun k => funext fun a => by match a with | ⟨0, _⟩ => rfl
  show ∃ r : ℝ, Ideal.div (val_main_v6 (F := Ideal) w i) (val_main_v9 (F := Ideal) w i) = (r : EReal)
  rw [val_main_v9_apply, val_main_v8_apply, val_main_v7_apply]
  simp only [e6, hrow, hμ, hwr]
  show ∃ r : ℝ, Ideal.div (Ideal.exp ((wr i : EReal) - (μ : EReal)))
    (Ideal.ofBits .f32 0x00000000#32 + ∑ k : Fin 256, Ideal.exp ((wr (idx_main_v7 (idx_main_v8 (idx_main_v9 i)) k) : EReal) - (μ : EReal))) = (r : EReal)
  rw [ofBits_zero]
  exact softmax_entry_real (by decide) (fun k => wr (idx_main_v7 (idx_main_v8 (idx_main_v9 i)) k)) μ (wr i)

/-- The second stage is the first stage's function. -/
theorem second_eq_first (w : (⟨S256x256, .f32⟩ : BufTy).Contents (Elt Ideal)) : val_main_v21 (F := Ideal) w = val_main_v10 (F := Ideal) w := rfl

/-! ## Down the columns of a [16, 256] array -/

/-- The column maximum (joined with -∞) of a real array is real. -/
theorem colmax_real (w : (⟨S16x256, .f32⟩ : BufTy).Contents (Elt Ideal)) (hw : ∀ i, ∃ r : ℝ, w i = (r : EReal)) (j : S256.Idx) :
    ∃ μ : ℝ, val_main_v24 (F := Ideal) w j = (μ : EReal) := by
  have h : S16x256.Reduces [0] S256 := by decide
  show ∃ μ : ℝ, max (Ideal.ofBits .f32 0xFF800000#32)
    (Host.reduce FloatOps.maximumf w (val_main_cst_5 (F := Ideal)) reducesTo_S16x256_S256_d0 h_S_ j) = (μ : EReal)
  rw [Host.reduce_eq_fold_single (FloatOps.maximumf (F := Ideal) (φ := .f32)) w _ reducesTo_S16x256_S256_d0 h h_S_]
  show ∃ μ : ℝ, max (Ideal.ofBits .f32 0xFF800000#32)
    ((Finset.univ : Finset (Fin 16)).fold max (Ideal.ofBits .f32 0xFF800000#32) (w ∘ h.lift j)) = (μ : EReal)
  rw [ofBits_neg_inf]
  exact max_fold_real (by decide) _ (fun k => hw _)

/-- The third stage at (k, s) is real. -/
theorem cols_real (w : (⟨S16x256, .f32⟩ : BufTy).Contents (Elt Ideal)) (hw : ∀ i, ∃ r : ℝ, w i = (r : EReal)) (i : S16x256.Idx) :
    ∃ r : ℝ, val_main_v32 (F := Ideal) w i = (r : EReal) := by
  obtain ⟨wr, hwr⟩ := exists_real_fun w hw
  obtain ⟨μ, hμ⟩ := colmax_real w hw (idx_main_v25 (idx_main_v26 i))
  have e28 : ∀ i', val_main_v28 (F := Ideal) w i' = Ideal.exp (w i' - val_main_v24 (F := Ideal) w (idx_main_v25 (idx_main_v26 i'))) := fun i' => by
    show Ideal.exp (w i' - val_main_v26 (F := Ideal) w i') = _
    rw [val_main_v26_apply, val_main_v25_apply]
  have hcol : ∀ k : Fin 16, idx_main_v25 (idx_main_v26 (idx_main_v29 (idx_main_v30 (idx_main_v31 i)) k)) = idx_main_v25 (idx_main_v26 i) :=
    fun k => funext fun a => by match a with | ⟨0, _⟩ => rfl
  show ∃ r : ℝ, Ideal.div (val_main_v28 (F := Ideal) w i) (val_main_v31 (F := Ideal) w i) = (r : EReal)
  rw [val_main_v31_apply, val_main_v30_apply, val_main_v29_apply]
  simp only [e28, hcol, hμ, hwr]
  show ∃ r : ℝ, Ideal.div (Ideal.exp ((wr i : EReal) - (μ : EReal)))
    (Ideal.ofBits .f32 0x00000000#32 + ∑ k : Fin 16, Ideal.exp ((wr (idx_main_v29 (idx_main_v30 (idx_main_v31 i)) k) : EReal) - (μ : EReal))) = (r : EReal)
  rw [ofBits_zero]
  exact softmax_entry_real (by decide) (fun k => wr (idx_main_v29 (idx_main_v30 (idx_main_v31 i)) k)) μ (wr i)

end Cert.ReferenceIdeal.SoftmaxReal

end
-- ==== Proof.Bridge.lean ====
/-
  The two results are one array.

  Kernel: at (s, b) the combination (c1 + cB·B) + A·(cA + cAB·B) of the four coefficient sums of the weights pt(·, s) with
  the inner products A, B of row s of the two row softmaxes against column b of x. Reference: 0 plus the sum over the
  sixteen gates of gate_k(A, B)·pt(k, s), with the same A, B and pt. The precondition makes every entry of the four arguments
  real; a softmax of reals is real and an inner product of reals is real, so A, B and the sixteen weights are real numbers,
  and for real numbers the two sides are the two sides of the gates' collapse onto 1, A, B, A·B — a polynomial identity.
  (Finiteness is needed: the identity moves factors across sums, which fails at infinities.)
-/
import proofs.«145931_j65429531787948_2_alg».proof.Proof.KernelArray
import proofs.«145931_j65429531787948_2_alg».proof.Proof.KernelHost
import proofs.«145931_j65429531787948_2_alg».proof.Proof.RefValue
import proofs.«145931_j65429531787948_2_alg».proof.Proof.SoftmaxReal

noncomputable section

namespace Cert.GateMix

open Cert.ReferenceIdeal Cert.ReferenceIdeal.ReadP Cert.ReferenceIdeal.RefValue Cert.ReferenceIdeal.SoftmaxReal
open Cert.KernelIdeal.HostPrefix Idealize.ShloMosaic Idealize.ShloMosaic.ValueIdx

/-- The kernel's whole-array function of the softmax stages of real arguments is the reference's result. -/
theorem kernel_eq_reference (x0 : (⟨S256x32768, .f32⟩ : BufTy).Contents (Elt Ideal)) (x1 x2 : (⟨S256x256, .f32⟩ : BufTy).Contents (Elt Ideal)) (x3 : (⟨S16x256, .f32⟩ : BufTy).Contents (Elt Ideal))
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) :
    Cert.KernelIdeal.WholeArray.mix (val_main_v10 (F := Ideal) x1) (val_main_v21 (F := Ideal) x2) x0
        (colConst (val_main_v32 (F := Ideal) x3)) (colA (val_main_v32 (F := Ideal) x3))
        (colB (val_main_v32 (F := Ideal) x3)) (colAB (val_main_v32 (F := Ideal) x3))
      = val_main_v82 (F := Ideal) x0 x1 x2 x3 := by
  funext i
  obtain ⟨s, b, rfl⟩ : ∃ (s : Fin 256) (b : Fin 32768), i = ix2 s b :=
    ⟨⟨(i 0).val, (i 0).isLt⟩, ⟨(i 1).val, (i 1).isLt⟩, funext fun a => by match a with | ⟨0, _⟩ => rfl | ⟨1, _⟩ => rfl⟩
  rw [result_at, dotA_at, dotB_at]
  show combine (colConst (val_main_v32 (F := Ideal) x3) (ix2 s 0)) (colA (val_main_v32 (F := Ideal) x3) (ix2 s 0))
      (colB (val_main_v32 (F := Ideal) x3) (ix2 s 0)) (colAB (val_main_v32 (F := Ideal) x3) (ix2 s 0))
      (∑ k : Fin 256, val_main_v10 (F := Ideal) x1 (ix2 s k) * x0 (ix2 k b))
      (∑ k : Fin 256, val_main_v21 (F := Ideal) x2 (ix2 s k) * x0 (ix2 k b)) = _
  rw [colConst_at, colA_at, colB_at, colAB_at]
  obtain ⟨p, hp⟩ := exists_real_fun (fun k : Fin 16 => val_main_v32 (F := Ideal) x3 (ix2 k s)) (fun k => cols_real x3 h3 _)
  obtain ⟨a, ha⟩ := dot_real (fun k : Fin 256 => val_main_v10 (F := Ideal) x1 (ix2 s k)) (fun k => x0 (ix2 k b))
    (fun k => rows_real x1 h1 _) (fun k => h0 _)
  obtain ⟨b', hb⟩ := dot_real (fun k : Fin 256 => val_main_v21 (F := Ideal) x2 (ix2 s k)) (fun k => x0 (ix2 k b))
    (fun k => by rw [second_eq_first]; exact rows_real x2 h2 _) (fun k => h0 _)
  have hp' : ∀ k : Fin 16, val_main_v32 (F := Ideal) x3 (ix2 k s) = (p k : EReal) := hp
  have ha' : ∑ k : Fin 256, val_main_v10 (F := Ideal) x1 (ix2 s k) * x0 (ix2 k b) = (a : EReal) := ha
  have hb' : ∑ k : Fin 256, val_main_v21 (F := Ideal) x2 (ix2 s k) * x0 (ix2 k b) = (b' : EReal) := hb
  rw [ha', hb']
  simp only [hp']
  exact (gates_collapse_ereal a b' p).symm

end Cert.GateMix

end
-- ==== Proof.lean ====
/-
  The certificate of the softmax-gated logic-gate mix: the tiled kernel against its plain reference.

  Both programs take x : [256, 32768] and three weight arrays, form pa = softmax(wa) and pb = softmax(wb) along rows and
  pt = softmax(wt) down columns, and A = pa · x, B = pb · x. The reference builds the table of the sixteen soft two-input gates
  of (A, B), weights gate k by pt(k, ·) and sums over k. The kernel uses that every such gate is an affine combination of
  1, A, B and A·B: the host collects the weights into four coefficient columns, and a pipelined region over eight column bands
  of x computes (c1 + cB·B) + A·(cA + cAB·B) band by band.

  The three frames: the two kernel programs' are the generated frame certificates; the reference's is its run with the
  result dropped. The idealization rewrote nothing, so there is nothing to preserve. The algebraic claim: the kernel's output
  array after the run is one whole-array function of the arrays the region reads (KernelArray), those arrays are the
  reference's own softmax stages and the coefficient sums of the third (KernelHost), the reference's result at an element
  is the weighted sum of the sixteen gates (RefValue), and for real inputs — the precondition (InputsReal), carried through
  the softmaxes (SoftmaxReal) — the two are the two sides of a polynomial identity (ERealFacts, Bridge).
-/
import proofs.«145931_j65429531787948_2_alg».proof.Defs
import proofs.«145931_j65429531787948_2_alg».proof.Proof.Gen.Kernel
import proofs.«145931_j65429531787948_2_alg».proof.Proof.Gen.Kernel.Skeleton
import proofs.«145931_j65429531787948_2_alg».proof.Proof.Gen.Kernel.Launch
import proofs.«145931_j65429531787948_2_alg».proof.Proof.Gen.Kernel.Points
import proofs.«145931_j65429531787948_2_alg».proof.Proof.Gen.Kernel.Frame
import proofs.«145931_j65429531787948_2_alg».proof.Proof.Gen.KernelIdeal
import proofs.«145931_j65429531787948_2_alg».proof.Proof.Gen.KernelIdeal.Skeleton
import proofs.«145931_j65429531787948_2_alg».proof.Proof.Gen.KernelIdeal.Launch
import proofs.«145931_j65429531787948_2_alg».proof.Proof.Gen.KernelIdeal.Points
import proofs.«145931_j65429531787948_2_alg».proof.Proof.Gen.KernelIdeal.Frame
import proofs.«145931_j65429531787948_2_alg».proof.Proof.Gen.KernelIdeal.Value
import proofs.«145931_j65429531787948_2_alg».proof.Proof.Gen.ReferenceIdeal
import proofs.«145931_j65429531787948_2_alg».proof.Proof.Gen.Pre_finite_inputs
import proofs.«145931_j65429531787948_2_alg».proof.Proof.RefRunPatched
import proofs.«145931_j65429531787948_2_alg».proof.Proof.RefReadPatched
import proofs.«145931_j65429531787948_2_alg».proof.Proof.InputsReal
import proofs.«145931_j65429531787948_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the reference's result stage of the kernel's arguments: the kernel's by the whole-array form of its
    output, the arrays the region reads, and the gates' collapse for real inputs; the reference's by its run, its arguments
    being the kernel's. -/
theorem algebraic : Cert.algebraic_KernelIdeal_ReferenceIdeal := by
  intro m ρ m' ρ' hpre hagree
  refine ⟨fun c => Cert.ReferenceIdeal.ReadP.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.WholeArray.run m ρ)
    obtain ⟨h0, h1, h2, h3⟩ := Cert.GateMix.real_of_pre _ _ _ _ (hpre c)
    rw [Cert.KernelIdeal.HostPrefix.V_pa, Cert.KernelIdeal.HostPrefix.V_pb, Cert.KernelIdeal.Gen.V_main_arg0,
      Cert.KernelIdeal.HostPrefix.V_cc, Cert.KernelIdeal.HostPrefix.V_ca, Cert.KernelIdeal.HostPrefix.V_cb,
      Cert.KernelIdeal.HostPrefix.V_cab]
    exact Cert.GateMix.kernel_eq_reference _ _ _ _ h0 h1 h2 h3
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v82_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
